-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S4x16x2048x64 : Shape := ⟨4, ![4, 16, 2048, 64]⟩
abbrev S1x16x2048x64 : Shape := ⟨4, ![1, 16, 2048, 64]⟩
abbrev S1x256x1024 : Shape := ⟨3, ![1, 256, 1024]⟩
abbrev S1x1x2048x64 : Shape := ⟨4, ![1, 1, 2048, 64]⟩
abbrev S2048x64 : Shape := ⟨2, ![2048, 64]⟩
abbrev S1x1x256x64 : Shape := ⟨4, ![1, 1, 256, 64]⟩
abbrev S256x64 : Shape := ⟨2, ![256, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 13
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S1024x1024, .bf16⟩
  | .hbm, ⟨7, _⟩ => ⟨S1x1024, .f32⟩
  | .hbm, ⟨8, _⟩ => ⟨S8192x1024, .bf16⟩
  | .hbm, ⟨9, _⟩ => ⟨S4x16x2048x64, .bf16⟩
  | .hbm, ⟨10, _⟩ => ⟨S1024x1024, .bf16⟩
  | .hbm, ⟨11, _⟩ => ⟨S1x1024, .f32⟩
  | .hbm, ⟨12, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x16x2048x64, .bf16⟩
  | .local _ .vmem, ⟨7, _⟩ => ⟨S1x16x2048x64, .bf16⟩
  | .local _ .vmem, ⟨8, _⟩ => ⟨S1024x1024, .bf16⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def k1_mult1 (i : grid1.Coords) : BitVec 32 :=
  let arg1 : BitVec 32 := BitVec.ofNat 32 (i 1).val
  let c256_i32 : BitVec 32 := 256#32
  let v0 : BitVec 32 := Scalar.muli arg1 c256_i32
  v0
def k1_off1 (i : grid1.Coords) : Fin 4 → Nat :=
  let c0_3 : Index := 0#32
  let c0_4 : Index := 0#32
  let arg1 : BitVec 32 := BitVec.ofNat 32 (i 1).val
  let c256_i32 : BitVec 32 := 256#32
  let v0 : BitVec 32 := Scalar.muli arg1 c256_i32
  let v1 : BitVec 32 := v0
  let v4 : Index := Scalar.indexCast v1
  let c0_5 : Index := 0#32
  ![0, 0, v4.toNat, 0]
def k1_off2 (i : grid1.Coords) : Fin 4 → Nat :=
  let c0_13 : Index := 0#32
  let c1_14 : Index := 1#32
  let arg1 : BitVec 32 := BitVec.ofNat 32 (i 1).val
  let c256_i32 : BitVec 32 := 256#32
  let v0 : BitVec 32 := Scalar.muli arg1 c256_i32
  let v1 : BitVec 32 := v0
  let v25 : Index := Scalar.indexCast v1
  let c0_15 : Index := 0#32
  ![0, 1, v25.toNat, 0]
def k1_off3 (i : grid1.Coords) : Fin 4 → Nat :=
  let c0_24 : Index := 0#32
  let c2_25 : Index := 2#32
  let arg1 : BitVec 32 := BitVec.ofNat 32 (i 1).val
  let c256_i32 : BitVec 32 := 256#32
  let v0 : BitVec 32 := Scalar.muli arg1 c256_i32
  let v1 : BitVec 32 := v0
  let v46 : Index := Scalar.indexCast v1
  let c0_26 : Index := 0#32
  ![0, 2, v46.toNat, 0]
def k1_off4 (i : grid1.Coords) : Fin 4 → Nat :=
  let c0_35 : Index := 0#32
  let c3_36 : Index := 3#32
  let arg1 : BitVec 32 := BitVec.ofNat 32 (i 1).val
  let c256_i32 : BitVec 32 := 256#32
  let v0 : BitVec 32 := Scalar.muli arg1 c256_i32
  let v1 : BitVec 32 := v0
  let v67 : Index := Scalar.indexCast v1
  let c0_37 : Index := 0#32
  ![0, 3, v67.toNat, 0]
def k1_off5 (i : grid1.Coords) : Fin 4 → Nat :=
  let c0_46 : Index := 0#32
  let c4_47 : Index := 4#32
  let arg1 : BitVec 32 := BitVec.ofNat 32 (i 1).val
  let c256_i32 : BitVec 32 := 256#32
  let v0 : BitVec 32 := Scalar.muli arg1 c256_i32
  let v1 : BitVec 32 := v0
  let v88 : Index := Scalar.indexCast v1
  let c0_48 : Index := 0#32
  ![0, 4, v88.toNat, 0]
def k1_off6 (i : grid1.Coords) : Fin 4 → Nat :=
  let c0_57 : Index := 0#32
  let c5_58 : Index := 5#32
  let arg1 : BitVec 32 := BitVec.ofNat 32 (i 1).val
  let c256_i32 : BitVec 32 := 256#32
  let v0 : BitVec 32 := Scalar.muli arg1 c256_i32
  let v1 : BitVec 32 := v0
  let v109 : Index := Scalar.indexCast v1
  let c0_59 : Index := 0#32
  ![0, 5, v109.toNat, 0]
def k1_off7 (i : grid1.Coords) : Fin 4 → Nat :=
  let c0_68 : Index := 0#32
  let c6_69 : Index := 6#32
  let arg1 : BitVec 32 := BitVec.ofNat 32 (i 1).val
  let c256_i32 : BitVec 32 := 256#32
  let v0 : BitVec 32 := Scalar.muli arg1 c256_i32
  let v1 : BitVec 32 := v0
  let v130 : Index := Scalar.indexCast v1
  let c0_70 : Index := 0#32
  ![0, 6, v130.toNat, 0]
def k1_off8 (i : grid1.Coords) : Fin 4 → Nat :=
  let c0_79 : Index := 0#32
  let c7_80 : Index := 7#32
  let arg1 : BitVec 32 := BitVec.ofNat 32 (i 1).val
  let c256_i32 : BitVec 32 := 256#32
  let v0 : BitVec 32 := Scalar.muli arg1 c256_i32
  let v1 : BitVec 32 := v0
  let v151 : Index := Scalar.indexCast v1
  let c0_81 : Index := 0#32
  ![0, 7, v151.toNat, 0]
def k1_off9 (i : grid1.Coords) : Fin 4 → Nat :=
  let c0_90 : Index := 0#32
  let c8_91 : Index := 8#32
  let arg1 : BitVec 32 := BitVec.ofNat 32 (i 1).val
  let c256_i32 : BitVec 32 := 256#32
  let v0 : BitVec 32 := Scalar.muli arg1 c256_i32
  let v1 : BitVec 32 := v0
  let v172 : Index := Scalar.indexCast v1
  let c0_92 : Index := 0#32
  ![0, 8, v172.toNat, 0]
def k1_off10 (i : grid1.Coords) : Fin 4 → Nat :=
  let c0_101 : Index := 0#32
  let c9_102 : Index := 9#32
  let arg1 : BitVec 32 := BitVec.ofNat 32 (i 1).val
  let c256_i32 : BitVec 32 := 256#32
  let v0 : BitVec 32 := Scalar.muli arg1 c256_i32
  let v1 : BitVec 32 := v0
  let v193 : Index := Scalar.indexCast v1
  let c0_103 : Index := 0#32
  ![0, 9, v193.toNat, 0]
def k1_off11 (i : grid1.Coords) : Fin 4 → Nat :=
  let c0_112 : Index := 0#32
  let c10_113 : Index := 10#32
  let arg1 : BitVec 32 := BitVec.ofNat 32 (i 1).val
  let c256_i32 : BitVec 32 := 256#32
  let v0 : BitVec 32 := Scalar.muli arg1 c256_i32
  let v1 : BitVec 32 := v0
  let v214 : Index := Scalar.indexCast v1
  let c0_114 : Index := 0#32
  ![0, 10, v214.toNat, 0]
def k1_off12 (i : grid1.Coords) : Fin 4 → Nat :=
  let c0_123 : Index := 0#32
  let c11_124 : Index := 11#32
  let arg1 : BitVec 32 := BitVec.ofNat 32 (i 1).val
  let c256_i32 : BitVec 32 := 256#32
  let v0 : BitVec 32 := Scalar.muli arg1 c256_i32
  let v1 : BitVec 32 := v0
  let v235 : Index := Scalar.indexCast v1
  let c0_125 : Index := 0#32
  ![0, 11, v235.toNat, 0]
def k1_off13 (i : grid1.Coords) : Fin 4 → Nat :=
  let c0_134 : Index := 0#32
  let c12_135 : Index := 12#32
  let arg1 : BitVec 32 := BitVec.ofNat 32 (i 1).val
  let c256_i32 : BitVec 32 := 256#32
  let v0 : BitVec 32 := Scalar.muli arg1 c256_i32
  let v1 : BitVec 32 := v0
  let v256 : Index := Scalar.indexCast v1
  let c0_136 : Index := 0#32
  ![0, 12, v256.toNat, 0]
def k1_off14 (i : grid1.Coords) : Fin 4 → Nat :=
  let c0_145 : Index := 0#32
  let c13_146 : Index := 13#32
  let arg1 : BitVec 32 := BitVec.ofNat 32 (i 1).val
  let c256_i32 : BitVec 32 := 256#32
  let v0 : BitVec 32 := Scalar.muli arg1 c256_i32
  let v1 : BitVec 32 := v0
  let v277 : Index := Scalar.indexCast v1
  let c0_147 : Index := 0#32
  ![0, 13, v277.toNat, 0]
def k1_off15 (i : grid1.Coords) : Fin 4 → Nat :=
  let c0_156 : Index := 0#32
  let c14_157 : Index := 14#32
  let arg1 : BitVec 32 := BitVec.ofNat 32 (i 1).val
  let c256_i32 : BitVec 32 := 256#32
  let v0 : BitVec 32 := Scalar.muli arg1 c256_i32
  let v1 : BitVec 32 := v0
  let v298 : Index := Scalar.indexCast v1
  let c0_158 : Index := 0#32
  ![0, 14, v298.toNat, 0]
def k1_off16 (i : grid1.Coords) : Fin 4 → Nat :=
  let c0_167 : Index := 0#32
  let c15_168 : Index := 15#32
  let arg1 : BitVec 32 := BitVec.ofNat 32 (i 1).val
  let c256_i32 : BitVec 32 := 256#32
  let v0 : BitVec 32 := Scalar.muli arg1 c256_i32
  let v1 : BitVec 32 := v0
  let v319 : Index := Scalar.indexCast v1
  let c0_169 : Index := 0#32
  ![0, 15, v319.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x16x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x16x2048x64 : S8192x1024.ShapeCasts S4x16x2048x64
  inb_S1x16x2048x64_S1x1x2048x64_0_0_0_0 : ∀ a, (![0, 0, 0, 0] : Fin 4 → Nat) a + S1x1x2048x64.size a ≤ S1x16x2048x64.size a
  h_S1x1x2048x64 : 0 < S1x1x2048x64.numel
  shapeCasts_S1x1x2048x64_S2048x64 : S1x1x2048x64.ShapeCasts S2048x64
  h_S1x1x256x64 : 0 < S1x1x256x64.numel
  shapeCasts_S1x1x256x64_S256x64 : S1x1x256x64.ShapeCasts S256x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  inb_S1x16x2048x64_S1x1x2048x64_0_1_0_0 : ∀ a, (![0, 1, 0, 0] : Fin 4 → Nat) a + S1x1x2048x64.size a ≤ S1x16x2048x64.size a
  inb_S1x16x2048x64_S1x1x2048x64_0_2_0_0 : ∀ a, (![0, 2, 0, 0] : Fin 4 → Nat) a + S1x1x2048x64.size a ≤ S1x16x2048x64.size a
  inb_S1x16x2048x64_S1x1x2048x64_0_3_0_0 : ∀ a, (![0, 3, 0, 0] : Fin 4 → Nat) a + S1x1x2048x64.size a ≤ S1x16x2048x64.size a
  inb_S1x16x2048x64_S1x1x2048x64_0_4_0_0 : ∀ a, (![0, 4, 0, 0] : Fin 4 → Nat) a + S1x1x2048x64.size a ≤ S1x16x2048x64.size a
  inb_S1x16x2048x64_S1x1x2048x64_0_5_0_0 : ∀ a, (![0, 5, 0, 0] : Fin 4 → Nat) a + S1x1x2048x64.size a ≤ S1x16x2048x64.size a
  inb_S1x16x2048x64_S1x1x2048x64_0_6_0_0 : ∀ a, (![0, 6, 0, 0] : Fin 4 → Nat) a + S1x1x2048x64.size a ≤ S1x16x2048x64.size a
  inb_S1x16x2048x64_S1x1x2048x64_0_7_0_0 : ∀ a, (![0, 7, 0, 0] : Fin 4 → Nat) a + S1x1x2048x64.size a ≤ S1x16x2048x64.size a
  inb_S1x16x2048x64_S1x1x2048x64_0_8_0_0 : ∀ a, (![0, 8, 0, 0] : Fin 4 → Nat) a + S1x1x2048x64.size a ≤ S1x16x2048x64.size a
  inb_S1x16x2048x64_S1x1x2048x64_0_9_0_0 : ∀ a, (![0, 9, 0, 0] : Fin 4 → Nat) a + S1x1x2048x64.size a ≤ S1x16x2048x64.size a
  inb_S1x16x2048x64_S1x1x2048x64_0_10_0_0 : ∀ a, (![0, 10, 0, 0] : Fin 4 → Nat) a + S1x1x2048x64.size a ≤ S1x16x2048x64.size a
  inb_S1x16x2048x64_S1x1x2048x64_0_11_0_0 : ∀ a, (![0, 11, 0, 0] : Fin 4 → Nat) a + S1x1x2048x64.size a ≤ S1x16x2048x64.size a
  inb_S1x16x2048x64_S1x1x2048x64_0_12_0_0 : ∀ a, (![0, 12, 0, 0] : Fin 4 → Nat) a + S1x1x2048x64.size a ≤ S1x16x2048x64.size a
  inb_S1x16x2048x64_S1x1x2048x64_0_13_0_0 : ∀ a, (![0, 13, 0, 0] : Fin 4 → Nat) a + S1x1x2048x64.size a ≤ S1x16x2048x64.size a
  inb_S1x16x2048x64_S1x1x2048x64_0_14_0_0 : ∀ a, (![0, 14, 0, 0] : Fin 4 → Nat) a + S1x1x2048x64.size a ≤ S1x16x2048x64.size a
  inb_S1x16x2048x64_S1x1x2048x64_0_15_0_0 : ∀ a, (![0, 15, 0, 0] : Fin 4 → Nat) a + S1x1x2048x64.size a ≤ S1x16x2048x64.size a
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S1x1x256x64.size a ≤ S1x16x2048x64.size a
  k1_off2_inb : ∀ i : grid1.Coords, ∀ a, (k1_off2 i) a + S1x1x256x64.size a ≤ S1x16x2048x64.size a
  k1_off3_inb : ∀ i : grid1.Coords, ∀ a, (k1_off3 i) a + S1x1x256x64.size a ≤ S1x16x2048x64.size a
  k1_off4_inb : ∀ i : grid1.Coords, ∀ a, (k1_off4 i) a + S1x1x256x64.size a ≤ S1x16x2048x64.size a
  k1_off5_inb : ∀ i : grid1.Coords, ∀ a, (k1_off5 i) a + S1x1x256x64.size a ≤ S1x16x2048x64.size a
  k1_off6_inb : ∀ i : grid1.Coords, ∀ a, (k1_off6 i) a + S1x1x256x64.size a ≤ S1x16x2048x64.size a
  k1_off7_inb : ∀ i : grid1.Coords, ∀ a, (k1_off7 i) a + S1x1x256x64.size a ≤ S1x16x2048x64.size a
  k1_off8_inb : ∀ i : grid1.Coords, ∀ a, (k1_off8 i) a + S1x1x256x64.size a ≤ S1x16x2048x64.size a
  k1_off9_inb : ∀ i : grid1.Coords, ∀ a, (k1_off9 i) a + S1x1x256x64.size a ≤ S1x16x2048x64.size a
  k1_off10_inb : ∀ i : grid1.Coords, ∀ a, (k1_off10 i) a + S1x1x256x64.size a ≤ S1x16x2048x64.size a
  k1_off11_inb : ∀ i : grid1.Coords, ∀ a, (k1_off11 i) a + S1x1x256x64.size a ≤ S1x16x2048x64.size a
  k1_off12_inb : ∀ i : grid1.Coords, ∀ a, (k1_off12 i) a + S1x1x256x64.size a ≤ S1x16x2048x64.size a
  k1_off13_inb : ∀ i : grid1.Coords, ∀ a, (k1_off13 i) a + S1x1x256x64.size a ≤ S1x16x2048x64.size a
  k1_off14_inb : ∀ i : grid1.Coords, ∀ a, (k1_off14 i) a + S1x1x256x64.size a ≤ S1x16x2048x64.size a
  k1_off15_inb : ∀ i : grid1.Coords, ∀ a, (k1_off15 i) a + S1x1x256x64.size a ≤ S1x16x2048x64.size a
  k1_off16_inb : ∀ i : grid1.Coords, ∀ a, (k1_off16 i) a + S1x1x256x64.size a ≤ S1x16x2048x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x2048x64.size a ≤ S4x16x2048x64.size a
  hwx1_0 : ∀ i : grid1.Coords, EltTy.bits .bf16 = 32 ∨ (Rect.block (s := S4x16x2048x64) S1x16x2048x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x2048x1024.size a
  hwx1_3 : ∀ i : grid1.Coords, EltTy.bits .f32 = 32 ∨ (Rect.block (s := S4x2048x1024) S1x256x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x16x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S4x2048x1024, .f32⟩
  | .hbm, ⟨6, _⟩ => ⟨S1x1x1024, .f32⟩
  | .hbm, ⟨7, _⟩ => ⟨S4x2048x1024, .f32⟩
  | .hbm, ⟨8, _⟩ => ⟨S4x2048x1024, .f32⟩
  | .hbm, ⟨9, _⟩ => ⟨S4x16x2048x64, .f32⟩
  | .hbm, ⟨10, _⟩ => ⟨S4x16x2048x2048, .f32⟩
  | .hbm, ⟨11, _⟩ => ⟨S_, .f32⟩
  | .hbm, ⟨12, _⟩ => ⟨S4x16x2048x2048, .f32⟩
  | .hbm, ⟨13, _⟩ => ⟨S4x16x2048x2048, .f32⟩
  | .hbm, ⟨14, _⟩ => ⟨S_, .f32⟩
  | .hbm, ⟨15, _⟩ => ⟨S4x16x2048, .f32⟩
  | .hbm, ⟨16, _⟩ => ⟨S_, .f32⟩
  | .hbm, ⟨17, _⟩ => ⟨S4x16x2048, .f32⟩
  | .hbm, ⟨18, _⟩ => ⟨S4x16x2048, .f32⟩
  | .hbm, ⟨19, _⟩ => ⟨S4x16x2048x1, .f32⟩
  | .hbm, ⟨20, _⟩ => ⟨S4x16x2048x2048, .f32⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S4x16x2048x1, .f32⟩
  | .hbm, ⟨26, _⟩ => ⟨S4x16x2048x2048, .f32⟩
  | .hbm, ⟨27, _⟩ => ⟨S4x16x2048x2048, .f32⟩
  | .hbm, ⟨28, _⟩ => ⟨S4x16x2048x64, .f32⟩
  | .hbm, ⟨29, _⟩ => ⟨S4x2048x16x64, .f32⟩
  | .hbm, ⟨30, _⟩ => ⟨S4x2048x1024, .f32⟩
  | .hbm, ⟨31, _⟩ => ⟨S4x2048x1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x16x2048x64 : S4x2048x1024.ShapeCasts S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_0_01_1_n_n_wf : DotDims.WF S4x2048x1024 S1024x1024 S4x2048x1024 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Consts.lean ====
/-
  The float literals of the two programs as extended reals. The kernel multiplies the scores by the pattern of 0.125;
  the reference divides them by the pattern of 8. On the extended reals dividing by the real 8 is multiplying by
  the real 1/8, at the infinities too, so the two scalings are one function.
-/
import Idealize.ShloMosaic.PureOps.Ideal

noncomputable section

namespace Cert.Attn

open Idealize.ShloMosaic

/-- The pattern of `0.125` denotes the real `1/8`. -/
theorem ofBits_eighth : Ideal.ofBits .f32 0x3E000000#32 = ((1 / 8 : ℝ) : EReal) := by
  simp [Ideal.ofBits, Ideal.ieee, -EReal.coe_mul]; norm_num

/-- The pattern of `8.0` denotes the real `8`. -/
theorem ofBits_eight : Ideal.ofBits .f32 0x41000000#32 = ((8 : ℝ) : EReal) := by
  simp [Ideal.ofBits, Ideal.ieee, -EReal.coe_mul]; norm_num

/-- The pattern of `-inf` denotes the bottom element. -/
theorem ofBits_negInf : Ideal.ofBits .f32 0xFF800000#32 = ⊥ := by
  simp [Ideal.ofBits, Ideal.ieee]

/-- The pattern of `+0.0` denotes `0`. -/
theorem ofBits_zero : Ideal.ofBits .f32 0x00000000#32 = 0 := by
  simp [Ideal.ofBits, Ideal.ieee]

/-- Dividing by the pattern of 8 is multiplying by the pattern of 0.125, on every extended real. -/
theorem div_eight (z : EReal) :
    Ideal.div z (Ideal.ofBits .f32 0x41000000#32) = z * Ideal.ofBits .f32 0x3E000000#32 := by
  rw [ofBits_eight, ofBits_eighth, Ideal.div_coe (by norm_num : (8 : ℝ) ≠ 0)]

end Cert.Attn

end
-- ==== Proof.Spec.lean ====
/-
  The result of the attention layer as ONE function of the five argument arrays, entry by entry, over the extended
  reals.

  * `projAt`: row `r` of the input viewed [8192, 1024] times the projection weight, plus the bias:
    `∑ d, x[r / 2048, r % 2048, d] · W[d, e] + b[e]`.
  * `headsAt`: the same numbers viewed [4, 16, 2048, 64] by the row-major position: entry (b, h, s, d) sits at
    position ((b·16 + h)·2048 + s)·64 + d, which is row (b·16 + h)·128 + s / 16 and column (s % 16)·64 + d of the
    [8192, 1024] view. (This is a plain re-reading of memory, not a transposition of heads.)
  * `headFeat`: one head on one query row. With keys `kk : [2048, 64]` (which are also the values) and the query row
    `qq : [64]`: the scores `(∑ d, qq d · kk k d) · ⅛`, their maximum over `k`, the exponentials of the shifted scores,
    their sum, and the weighted sum of the value rows `∑ k, (exp_k / sum) · kk k d`.
  * `mergedAt`: the heads side by side: column `j` of row `s` is head `j / 64`, feature `j % 64`.
  * `outAt`: the merged rows times the output weight, plus the output bias.
-/
import Idealize.ShloMosaic.PureOps.Ideal
import Idealize.ShloMosaic.Lib.ValueIdx

noncomputable section

open scoped BigOperators

namespace Cert.Attn

open Idealize.ShloMosaic Idealize.ShloMosaic.ValueIdx

/-- The shapes of the arguments: the input [4, 2048, 1024], a weight [1024, 1024], a bias [1024]. -/
abbrev SX : Shape := ⟨3, ![4, 2048, 1024]⟩
abbrev SW : Shape := ⟨2, ![1024, 1024]⟩
abbrev SB : Shape := ⟨1, ![1024]⟩

/-! ## One head on one query row -/

/-- The scaled score of the query row against key row `k`. -/
def headScore (kk : Fin 2048 → Fin 64 → EReal) (qq : Fin 64 → EReal) (k : Fin 2048) : EReal :=
  (∑ d : Fin 64, qq d * kk k d) * Ideal.ofBits .f32 0x3E000000#32

/-- The largest score of the row (the maximum over all keys, from `-inf`). -/
def headMax (kk : Fin 2048 → Fin 64 → EReal) (qq : Fin 64 → EReal) : EReal :=
  (Finset.univ : Finset (Fin 2048)).fold max (Ideal.ofBits .f32 0xFF800000#32) (headScore kk qq)

/-- The exponential of a score shifted by the row's maximum. -/
def headExp (kk : Fin 2048 → Fin 64 → EReal) (qq : Fin 64 → EReal) (k : Fin 2048) : EReal :=
  Ideal.exp (headScore kk qq k - headMax kk qq)

/-- Feature `d` of the head's output on this query row: the softmax weights times the value rows. -/
def headFeat (kk : Fin 2048 → Fin 64 → EReal) (qq : Fin 64 → EReal) (d : Fin 64) : EReal :=
  ∑ k : Fin 2048, Ideal.div (headExp kk qq k) (∑ k' : Fin 2048, headExp kk qq k') * kk k d

/-! ## The layer -/

/-- Entry (r, e) of the projection, the input read as [8192, 1024]. -/
def projAt (x : SX.Idx → EReal) (w : SW.Idx → EReal) (b : SB.Idx → EReal) (r : Fin 8192) (e : Fin 1024) : EReal :=
  (∑ d : Fin 1024, x (ix3 (⟨r.val / 2048, by omega⟩ : Fin 4) (⟨r.val % 2048, by omega⟩ : Fin 2048) d) * w (ix2 d e))
    + b (ix1 e)

/-- Entry (b, h, s, d) of the projection read as [4, 16, 2048, 64] by row-major position. -/
def headsAt (x : SX.Idx → EReal) (w : SW.Idx → EReal) (b : SB.Idx → EReal)
    (bb : Fin 4) (h : Fin 16) (s : Fin 2048) (d : Fin 64) : EReal :=
  projAt x w b ⟨(bb.val * 16 + h.val) * 128 + s.val / 16, by omega⟩ ⟨(s.val % 16) * 64 + d.val, by omega⟩

/-- Feature `d` of head `h` of batch `bb` on query row `s`. -/
def featAt (x : SX.Idx → EReal) (w : SW.Idx → EReal) (b : SB.Idx → EReal)
    (bb : Fin 4) (h : Fin 16) (s : Fin 2048) (d : Fin 64) : EReal :=
  headFeat (fun k d' => headsAt x w b bb h k d') (fun d' => headsAt x w b bb h s d') d

/-- Column `j` of the merged row `s` of batch `bb`: head `j / 64`, feature `j % 64`. -/
def mergedAt (x : SX.Idx → EReal) (w : SW.Idx → EReal) (b : SB.Idx → EReal)
    (bb : Fin 4) (s : Fin 2048) (j : Fin 1024) : EReal :=
  featAt x w b bb ⟨j.val / 64, by omega⟩ s ⟨j.val % 64, by omega⟩

/-- Entry (bb, s, e) of the result. -/
def outAt (x : SX.Idx → EReal) (w : SW.Idx → EReal) (b : SB.Idx → EReal) (wo : SW.Idx → EReal) (bo : SB.Idx → EReal)
    (bb : Fin 4) (s : Fin 2048) (e : Fin 1024) : EReal :=
  (∑ j : Fin 1024, mergedAt x w b bb s j * wo (ix2 j e)) + bo (ix1 e)

/-- The result array [4, 2048, 1024]. -/
def attnOut (x : SX.Idx → EReal) (w : SW.Idx → EReal) (b : SB.Idx → EReal) (wo : SW.Idx → EReal) (bo : SB.Idx → EReal) :
    SX.Idx → EReal :=
  fun i => outAt x w b wo bo ⟨(i 0).val, (i 0).isLt⟩ ⟨(i 1).val, (i 1).isLt⟩ ⟨(i 2).val, (i 2).isLt⟩

end Cert.Attn

end
-- ==== Proof.RefSide.lean ====
/-
  The reference program of the attention layer IS the specification, entry by entry.

  The reference computes, in order: the product of the input (read [4, 2048, 1024]) with the projection weight plus the
  bias row; the same numbers re-read [4, 16, 2048, 64] by row-major position, which serve as queries, keys and values
  at once; per (batch, head) the scores query·key divided by 8; each score row's maximum over the keys, taken from
  -inf (and once more against -inf, which changes nothing since -inf is the bottom element); the exponentials of the
  scores shifted by that maximum; their sum over the keys from 0; the quotients; the weighted sum of the value rows;
  the transposition to [4, 2048, 16, 64] and its re-reading [4, 2048, 1024], which sets the heads side by side; and
  the product with the output weight plus the output bias row.

  Each stage is read here at an index written out in literal coordinates, and identified with the specification's
  function of the same meaning: `projAt`, `headsAt`, `headScore`, `headMax`, `headExp`, `featAt`, `mergedAt`, `outAt`.
  Three facts carry the arithmetic: a position of one row-major view splits uniquely into the coordinates of another
  (quotients and remainders by the literal extents); dividing by 8 is multiplying by 1/8 on every extended real; and
  the maximum is commutative and associative, so the reduction over the key axis is the fold over the key positions.
-/
import proofs.«166996_j21715354648981_2_alg».proof.Proof.Gen.ReferenceIdeal.Read
import proofs.«166996_j21715354648981_2_alg».proof.Proof.Consts
import proofs.«166996_j21715354648981_2_alg».proof.Proof.Spec
import Idealize.ShloMosaic.Lib.ValueIdx
import Idealize.ShloMosaic.PureOps.Ideal.Laws
import Idealize.ShloMosaic.PureOps.Reduce

noncomputable section

open scoped BigOperators

namespace Cert.Attn.RefSide

open Cert.ReferenceIdeal Cert.ReferenceIdeal.Read Cert.Attn Idealize.ShloMosaic Idealize.ShloMosaic.ValueIdx

variable (x0 : (⟨S4x2048x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal))

/-! ## The projection: one matrix product plus the bias row -/

/-- The left operand of the first product is read at (b, s, k). -/
theorem lidx_v0 (b : Fin 4) (s : Fin 2048) (e k : Fin 1024) : lidx_main_v0 (ix3 b s e) k = ix3 b s k :=
  funext fun a => Fin.ext (by match a with | ⟨0, _⟩ => rfl | ⟨1, _⟩ => rfl | ⟨2, _⟩ => rfl)

/-- The right operand of the first product is read at (k, e). -/
theorem ridx_v0 (b : Fin 4) (s : Fin 2048) (e k : Fin 1024) : ridx_main_v0 (ix3 b s e) k = ix2 k e :=
  funext fun a => Fin.ext (by match a with | ⟨0, _⟩ => rfl | ⟨1, _⟩ => rfl)

/-- The bias, broadcast twice, is read at e. -/
theorem idx_v1v2 (b : Fin 4) (s : Fin 2048) (e : Fin 1024) : idx_main_v1 (idx_main_v2 (ix3 b s e)) = ix1 e :=
  funext fun a => Fin.ext (by match a with | ⟨0, _⟩ => rfl)

/-- Entry (b, s, e) of the biased product is entry (r, e) of the projection, r = b·2048 + s being the row of the
    input viewed [8192, 1024]. -/
theorem v3_at (b : Fin 4) (s : Fin 2048) (e : Fin 1024) (r : Fin 8192) (hr : r.val = b.val * 2048 + s.val) :
    val_main_v3 (F := Ideal) x0 x1 x2 (ix3 b s e) = projAt x0 x1 x2 r e := by
  rw [val_main_v3_apply, val_main_v0_apply, val_main_v2_apply, val_main_v1_apply, idx_v1v2]
  unfold projAt
  rw [Ideal.addf_def]
  have hb : (⟨r.val / 2048, by omega⟩ : Fin 4) = b := Fin.ext (by have := s.isLt; show r.val / 2048 = b.val; omega)
  have hs : (⟨r.val % 2048, by omega⟩ : Fin 2048) = s := Fin.ext (by have := s.isLt; show r.val % 2048 = s.val; omega)
  refine congrArg (· + x2 (ix1 e)) (Finset.sum_congr rfl fun k _ => ?_)
  rw [lidx_v0, ridx_v0, hb, hs]

/-! ## The heads: the same numbers re-read by row-major position -/

/-- The position of (b, h, s, d) in the [4, 16, 2048, 64] view, split as a position of the [4, 2048, 1024] view. -/
theorem idx_v4 (b : Fin 4) (h : Fin 16) (s : Fin 2048) (d : Fin 64) :
    idx_main_v4 (ix4 b h s d)
      = ix3 (⟨((b.val * 16 + h.val) * 128 + s.val / 16) / 2048, by omega⟩ : Fin 4)
            (⟨((b.val * 16 + h.val) * 128 + s.val / 16) % 2048, by omega⟩ : Fin 2048)
            (⟨(s.val % 16) * 64 + d.val, by omega⟩ : Fin 1024) :=
  funext fun a => Fin.ext (by
    have hb := b.isLt; have hh := h.isLt; have hs := s.isLt; have hd := d.isLt
    match a with
    | ⟨0, _⟩ => show (((b.val * 16 + h.val) * 2048 + s.val) * 64 + d.val) / 2097152 = ((b.val * 16 + h.val) * 128 + s.val / 16) / 2048; omega
    | ⟨1, _⟩ => show (((b.val * 16 + h.val) * 2048 + s.val) * 64 + d.val) / 1024 % 2048 = ((b.val * 16 + h.val) * 128 + s.val / 16) % 2048; omega
    | ⟨2, _⟩ => show (((b.val * 16 + h.val) * 2048 + s.val) * 64 + d.val) % 1024 = (s.val % 16) * 64 + d.val; omega)

/-- Entry (b, h, s, d) of the reshaped projection is the specification's head entry. -/
theorem v4_at (b : Fin 4) (h : Fin 16) (s : Fin 2048) (d : Fin 64) :
    val_main_v4 (F := Ideal) x0 x1 x2 (ix4 b h s d) = headsAt x0 x1 x2 b h s d := by
  rw [val_main_v4_apply, idx_v4]
  exact v3_at x0 x1 x2 _ _ _ ⟨(b.val * 16 + h.val) * 128 + s.val / 16, by omega⟩
    (by show (b.val * 16 + h.val) * 128 + s.val / 16
          = ((b.val * 16 + h.val) * 128 + s.val / 16) / 2048 * 2048 + ((b.val * 16 + h.val) * 128 + s.val / 16) % 2048
        omega)

/-! ## The scores -/

/-- The left operand of the score product is read at (b, h, q, d). -/
theorem lidx_v5 (b : Fin 4) (h : Fin 16) (q k : Fin 2048) (d : Fin 64) : lidx_main_v5 (ix4 b h q k) d = ix4 b h q d :=
  funext fun a => Fin.ext (by match a with | ⟨0, _⟩ => rfl | ⟨1, _⟩ => rfl | ⟨2, _⟩ => rfl | ⟨3, _⟩ => rfl)

/-- The right operand of the score product is read at (b, h, k, d). -/
theorem ridx_v5 (b : Fin 4) (h : Fin 16) (q k : Fin 2048) (d : Fin 64) : ridx_main_v5 (ix4 b h q k) d = ix4 b h k d :=
  funext fun a => Fin.ext (by match a with | ⟨0, _⟩ => rfl | ⟨1, _⟩ => rfl | ⟨2, _⟩ => rfl | ⟨3, _⟩ => rfl)

/-- The keys (which are also the values) of head (b, h), as the specification names them. -/
abbrev keys (b : Fin 4) (h : Fin 16) : Fin 2048 → Fin 64 → EReal := fun k d' => headsAt x0 x1 x2 b h k d'
/-- The query row q of head (b, h), as the specification names it. -/
abbrev query (b : Fin 4) (h : Fin 16) (q : Fin 2048) : Fin 64 → EReal := fun d' => headsAt x0 x1 x2 b h q d'

/-- Entry (b, h, q, k) of the scaled scores: dividing by 8 is multiplying by 1/8. -/
theorem v7_at (b : Fin 4) (h : Fin 16) (q k : Fin 2048) :
    val_main_v7 (F := Ideal) x0 x1 x2 (ix4 b h q k) = headScore (keys x0 x1 x2 b h) (query x0 x1 x2 b h q) k := by
  rw [val_main_v7_apply, val_main_v5_apply, val_main_v6_apply, val_main_cst_apply, Ideal.hostDivf_def, Ideal.ofBits_def, div_eight]
  unfold headScore
  refine congrArg (· * Ideal.ofBits .f32 0x3E000000#32) (Finset.sum_congr rfl fun d _ => ?_)
  rw [lidx_v5, ridx_v5, v4_at, v4_at]

/-! ## The row maximum -/

/-- The reduced index (b, h, q) with key position k put back is (b, h, q, k). -/
theorem lift_v8 (hr : S4x16x2048x2048.Reduces [3] S4x16x2048) (b : Fin 4) (h : Fin 16) (q : Fin 2048)
    (k : Fin (S4x16x2048x2048.size 3)) : hr.lift (ix3 b h q) k = ix4 b h q (⟨k.val, k.isLt⟩ : Fin 2048) := by
  funext c; apply Fin.ext
  fin_cases c <;> rfl

/-- The maximum over the keys, from -inf, at (b, h, q): a commutative and associative fold, so the fold over the
    key positions in any order. -/
theorem v8_at (b : Fin 4) (h : Fin 16) (q : Fin 2048) :
    val_main_v8 (F := Ideal) x0 x1 x2 (ix3 b h q) = headMax (keys x0 x1 x2 b h) (query x0 x1 x2 b h q) := by
  unfold val_main_v8 headMax
  have hr : S4x16x2048x2048.Reduces [3] S4x16x2048 := by decide
  rw [Host.reduce_eq_fold_single FloatOps.maximumf _ _ _ hr]
  have hf : (val_main_v7 (F := Ideal) x0 x1 x2 ∘ hr.lift (ix3 b h q))
      = headScore (keys x0 x1 x2 b h) (query x0 x1 x2 b h q) :=
    funext fun k => (congrArg (val_main_v7 (F := Ideal) x0 x1 x2) (lift_v8 hr b h q k)).trans (v7_at x0 x1 x2 b h q _)
  exact congrArg (fun f => Finset.fold max (Ideal.ofBits .f32 0xFF800000#32) f (Finset.univ : Finset (Fin 2048))) hf

/-- Taking the maximum with -inf once more changes nothing. -/
theorem v10_at (b : Fin 4) (h : Fin 16) (q : Fin 2048) :
    val_main_v10 (F := Ideal) x0 x1 x2 (ix3 b h q) = headMax (keys x0 x1 x2 b h) (query x0 x1 x2 b h q) := by
  rw [val_main_v10_apply, val_main_v9_apply, val_main_cst_1_apply, v8_at, Ideal.maximumf_def, Ideal.ofBits_def, ofBits_negInf]
  exact max_bot_left _

/-! ## The exponentials, their sum, the weights -/

/-- The keep-dims broadcasts of the row maximum are read at (b, h, q). -/
theorem idx_v11v12 (b : Fin 4) (h : Fin 16) (q k : Fin 2048) : idx_main_v11 (idx_main_v12 (ix4 b h q k)) = ix3 b h q :=
  funext fun a => Fin.ext (by match a with | ⟨0, _⟩ => rfl | ⟨1, _⟩ => rfl | ⟨2, _⟩ => rfl)

/-- The keep-dims broadcasts of the row sum are read at (b, h, q). -/
theorem idx_v16v17 (b : Fin 4) (h : Fin 16) (q k : Fin 2048) : idx_main_v16 (idx_main_v17 (ix4 b h q k)) = ix3 b h q :=
  funext fun a => Fin.ext (by match a with | ⟨0, _⟩ => rfl | ⟨1, _⟩ => rfl | ⟨2, _⟩ => rfl)

/-- The summand k of the row sum at (b, h, q) is read at (b, h, q, k). -/
theorem idx_v15 (b : Fin 4) (h : Fin 16) (q k : Fin 2048) : idx_main_v15 (ix3 b h q) k = ix4 b h q k :=
  funext fun a => Fin.ext (by match a with | ⟨0, _⟩ => rfl | ⟨1, _⟩ => rfl | ⟨2, _⟩ => rfl | ⟨3, _⟩ => rfl)

/-- Entry (b, h, q, k) of the exponentials of the shifted scores. -/
theorem v14_at (b : Fin 4) (h : Fin 16) (q k : Fin 2048) :
    val_main_v14 (F := Ideal) x0 x1 x2 (ix4 b h q k) = headExp (keys x0 x1 x2 b h) (query x0 x1 x2 b h q) k := by
  rw [val_main_v14_apply, val_main_v13_apply, val_main_v12_apply, val_main_v11_apply, idx_v11v12, v10_at, v7_at,
    Ideal.hostUnary_exp_def, Ideal.subf_def]
  rfl

/-- The sum of the exponentials over the keys, from 0, at (b, h, q). -/
theorem v15_at (b : Fin 4) (h : Fin 16) (q : Fin 2048) :
    val_main_v15 (F := Ideal) x0 x1 x2 (ix3 b h q) = ∑ k : Fin 2048, headExp (keys x0 x1 x2 b h) (query x0 x1 x2 b h q) k := by
  rw [val_main_v15_apply, val_main_cst_2_apply, Ideal.ofBits_def, ofBits_zero, zero_add]
  refine Finset.sum_congr rfl fun k _ => ?_
  rw [idx_v15, v14_at]

/-- Entry (b, h, q, k) of the softmax weights. -/
theorem v18_at (b : Fin 4) (h : Fin 16) (q k : Fin 2048) :
    val_main_v18 (F := Ideal) x0 x1 x2 (ix4 b h q k)
      = Ideal.div (headExp (keys x0 x1 x2 b h) (query x0 x1 x2 b h q) k)
          (∑ k' : Fin 2048, headExp (keys x0 x1 x2 b h) (query x0 x1 x2 b h q) k') := by
  rw [val_main_v18_apply, val_main_v17_apply, val_main_v16_apply, idx_v16v17, v15_at, v14_at, Ideal.hostDivf_def]

/-! ## The weighted values, the heads side by side, the output product -/

/-- The weights of the value product are read at (b, h, s, k). -/
theorem lidx_v19 (b : Fin 4) (h : Fin 16) (s k : Fin 2048) (d : Fin 64) : lidx_main_v19 (ix4 b h s d) k = ix4 b h s k :=
  funext fun a => Fin.ext (by match a with | ⟨0, _⟩ => rfl | ⟨1, _⟩ => rfl | ⟨2, _⟩ => rfl | ⟨3, _⟩ => rfl)

/-- The values of the value product are read at (b, h, k, d). -/
theorem ridx_v19 (b : Fin 4) (h : Fin 16) (s k : Fin 2048) (d : Fin 64) : ridx_main_v19 (ix4 b h s d) k = ix4 b h k d :=
  funext fun a => Fin.ext (by match a with | ⟨0, _⟩ => rfl | ⟨1, _⟩ => rfl | ⟨2, _⟩ => rfl | ⟨3, _⟩ => rfl)

/-- Entry (b, h, s, d) of the weighted sum of the value rows. -/
theorem v19_at (b : Fin 4) (h : Fin 16) (s : Fin 2048) (d : Fin 64) :
    val_main_v19 (F := Ideal) x0 x1 x2 (ix4 b h s d) = featAt x0 x1 x2 b h s d := by
  rw [val_main_v19_apply]
  unfold featAt headFeat
  refine Finset.sum_congr rfl fun k _ => ?_
  rw [lidx_v19, ridx_v19, v18_at, v4_at]

/-- Column j of row (b, s) of the merged array is read, through the reshape and the transposition, at
    (b, j / 64, s, j % 64). -/
theorem idx_v20v21 (b : Fin 4) (s : Fin 2048) (j : Fin 1024) :
    idx_main_v20 (idx_main_v21 (ix3 b s j)) = ix4 b (⟨j.val / 64, by omega⟩ : Fin 16) s (⟨j.val % 64, by omega⟩ : Fin 64) :=
  funext fun a => Fin.ext (by
    have hb := b.isLt; have hs := s.isLt; have hj := j.isLt
    match a with
    | ⟨0, _⟩ => show ((b.val * 2048 + s.val) * 1024 + j.val) / 2097152 = b.val; omega
    | ⟨1, _⟩ => show ((b.val * 2048 + s.val) * 1024 + j.val) / 64 % 16 = j.val / 64; omega
    | ⟨2, _⟩ => show ((b.val * 2048 + s.val) * 1024 + j.val) / 1024 % 2048 = s.val; omega
    | ⟨3, _⟩ => show ((b.val * 2048 + s.val) * 1024 + j.val) % 64 = j.val % 64; omega)

/-- Entry (b, s, j) of the merged array. -/
theorem v21_at (b : Fin 4) (s : Fin 2048) (j : Fin 1024) :
    val_main_v21 (F := Ideal) x0 x1 x2 (ix3 b s j) = mergedAt x0 x1 x2 b s j := by
  rw [val_main_v21_apply, val_main_v20_apply, idx_v20v21, v19_at]
  rfl

/-- The left operand of the output product is read at (b, s, k). -/
theorem lidx_v22 (b : Fin 4) (s : Fin 2048) (e k : Fin 1024) : lidx_main_v22 (ix3 b s e) k = ix3 b s k :=
  funext fun a => Fin.ext (by match a with | ⟨0, _⟩ => rfl | ⟨1, _⟩ => rfl | ⟨2, _⟩ => rfl)

/-- The output weight is read at (k, e). -/
theorem ridx_v22 (b : Fin 4) (s : Fin 2048) (e k : Fin 1024) : ridx_main_v22 (ix3 b s e) k = ix2 k e :=
  funext fun a => Fin.ext (by match a with | ⟨0, _⟩ => rfl | ⟨1, _⟩ => rfl)

/-- The output bias, broadcast twice, is read at e. -/
theorem idx_v23v24 (b : Fin 4) (s : Fin 2048) (e : Fin 1024) : idx_main_v23 (idx_main_v24 (ix3 b s e)) = ix1 e :=
  funext fun a => Fin.ext (by match a with | ⟨0, _⟩ => rfl)

/-- Entry (b, s, e) of the result. -/
theorem v25_at (b : Fin 4) (s : Fin 2048) (e : Fin 1024) :
    val_main_v25 (F := Ideal) x0 x1 x2 x3 x4 (ix3 b s e) = outAt x0 x1 x2 x3 x4 b s e := by
  rw [val_main_v25_apply, val_main_v22_apply, val_main_v24_apply, val_main_v23_apply, idx_v23v24, Ideal.addf_def]
  unfold outAt
  refine congrArg (· + x4 (ix1 e)) (Finset.sum_congr rfl fun k _ => ?_)
  rw [lidx_v22, ridx_v22, v21_at]

/-! ## The whole array -/

/-- The reference program's result is the specification: entry by entry, the projection, its re-reading as heads,
    the scaled scores, their row maximum, the exponentials and their sum, the weighted values, the heads side by
    side, and the output product with its bias are the specification's functions of the same names. -/
theorem ref_is_spec (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) :
    val_main_v25 (F := Ideal) x0 x1 x2 x3 x4 = attnOut x0 x1 x2 x3 x4 := by
  funext i
  obtain ⟨b, s, e, rfl⟩ : ∃ (b : Fin 4) (s : Fin 2048) (e : Fin 1024), i = ix3 b s e := ⟨i 0, i 1, i 2, eq_ix3 i⟩
  exact v25_at x0 x1 x2 x3 x4 b s e

end Cert.Attn.RefSide

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.ProjValue.lean ====
/-
  The first kernel of the layer: the projection of the input rows.

  The input, read as an [8192, 1024] matrix (row `r` is entry (r / 2048, r % 2048) of the [4, 2048, 1024] array, by
  row-major position), is cut into 8 blocks of 1024 consecutive rows. On block `t` the kernel forms, at row `p` and
  column `q` of the block, `(∑ k, x[p, k] · W[k, q]) + b[0, q]`: `x` the block's rows, `W` the whole weight matrix,
  `b` the bias as a [1, 1024] row (a change of float format does nothing to an extended real, and the sum into a zero
  accumulator is the plain sum). Row `p` of block `t` is row `t · 1024 + p` of the matrix, the weight and the bias are
  the same for every block, so block `t` writes rows `t · 1024 … t · 1024 + 1023` of `projAt`. Row `r` lies in block
  `r / 1024`, so the eight blocks fill the [8192, 1024] output, which therefore ends holding `projAt` entry by entry.
-/
import proofs.«166996_j21715354648981_2_alg».proof.Proof.Gen.KernelIdeal.Frame
import proofs.«166996_j21715354648981_2_alg».proof.Proof.Spec
import proofs.«166996_j21715354648981_2_alg».proof.Proof.LibRowLayers
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.Lib.StableHlo.Run

noncomputable section

namespace Cert.Attn.Proj

open Cert.KernelIdeal Cert.KernelIdeal.Gen Cert.Attn Idealize.ShloMosaic Idealize.ShloMosaic.ValueIdx Idealize.SL.Sem
open Idealize.ShloMosaic.TcCoe
open Cert.RowLayers

/-! ## One block: the arithmetic at an entry -/

/-- The offsets (0, 0) of a whole-block access are the zero offsets. -/
theorem zeroOffsets : (![0, 0] : Fin 2 → Nat) = fun _ => 0 := funext fun a => by fin_cases a <;> rfl

/-- The block product's dimension numbers say "rows times columns": entry (p, q) contracts row `p` of the left
    operand with column `q` of the right one over the 1024 inner positions. -/
theorem rowsTimesCols : RowsTimesCols (a := 1024) (K := 1024) (b := 1024) dot_S1024x1024_S1024x1024_S1024x1024_1_0_0_1_n_n where
  rank := rfl
  size := rfl
  lhs0 := fun j q => by
    unfold DotDims.lhsIdx
    rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
    rfl
  lhs1 := fun j q => dot_S1024x1024_S1024x1024_S1024x1024_1_0_0_1_n_n.lhsIdx_val_of_single rfl j q
  rhs0 := fun j q => dot_S1024x1024_S1024x1024_S1024x1024_1_0_0_1_n_n.rhsIdx_val_of_single rfl j q
  rhs1 := fun j q => by
    unfold DotDims.rhsIdx
    rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
    rfl

/-- Entry (p, q) of what the body computes from a block of rows `x0`, the weight `x1` and the bias row `x2`:
    `(∑ k, x0[p, k] · x1[k, q]) + x2[0, q]`. -/
theorem pay_apply (x0 : Vec Ideal S1024x1024 .f32) (x1 : Vec Ideal S1024x1024 .bf16) (x2 : Vec Ideal S1x1024 .f32) (p q : Fin 1024) :
    k0_pay1 x0 x1 x2 (ix2 p q) = (∑ k : Fin 1024, x0 (ix2 p k) * x1 (ix2 k q)) + x2 (ix2 0 q) := by
  unfold k0_pay1
  rw [shapeCast_self, shapeCast_self, shapeCast_self]
  exact congrFun (rowOf_dense_device rowsTimesCols none (truncf .bf16 x0 bitsLt_bf16_f32) x1 x2 broadcasts_S1x1024_S1024x1024 p) q

variable (m : (ℓ : Loc nD τ sig) → Buf (Elt Ideal) ℓ) (ρ : Dev nD → PrngReg)

/-! ## The three arrays the kernel reads, as it finds them -/

/-- The [8192, 1024] matrix the kernel reads is the input array re-read by row-major position. -/
theorem entry_input (c : Dev nD) :
    (V1 m ρ c main_v0 : S8192x1024.Idx → EReal)
      = shapeCast S8192x1024 (m ((c : Thread nD τ).loc main_arg0)) shapeCasts_S4x2048x1024_S8192x1024 := by
  dsimp only [V1, W1, W0, hostOps0]; after_results; rfl

/-- The weight the kernel reads is the weight argument: a change of float format does nothing to an extended real. -/
theorem entry_weight (c : Dev nD) :
    (V1 m ρ c main_v1 : S1024x1024.Idx → EReal) = m ((c : Thread nD τ).loc main_arg1) := by
  dsimp only [V1, W1, W0, hostOps0]; after_results; rfl

/-- The [1, 1024] bias row the kernel reads is the bias vector re-read by row-major position. -/
theorem entry_bias (c : Dev nD) :
    (V1 m ρ c main_v2 : S1x1024.Idx → EReal)
      = shapeCast S1x1024 (m ((c : Thread nD τ).loc main_arg2)) shapeCasts_S1024_S1x1024 := by
  dsimp only [V1, W1, W0, hostOps0]; after_results; rfl

/-! ## From blocks to the array -/

/-- The projection as one [8192, 1024] array: entry (r, e) is `projAt` at row `r` and column `e`. -/
abbrev projArr (c : Dev nD) : S8192x1024.Idx → EReal :=
  fun i => projAt (m ((c : Thread nD τ).loc main_arg0)) (m ((c : Thread nD τ).loc main_arg1)) (m ((c : Thread nD τ).loc main_arg2))
    ⟨(i 0).val, (i 0).isLt⟩ ⟨(i 1).val, (i 1).isLt⟩

/-- Which block each of the four arrays shows at point `t`: the input and the output their block of rows `t` (block
    row `t`, block column 0), the weight and the bias their only block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the input block at point `t` is entry (r / 2048, r % 2048, k) of the input array, `r = t · 1024 + p`:
    both sit at row-major position `r · 1024 + k`. -/
theorem block_input (c : Dev nD) (t : Fin cfg0.N) (p k : Fin 1024) (r : Fin 8192) (hr : r.val = t.val * 1024 + p.val) :
    (iblk0 (V1 m ρ) c 0 t : S1024x1024.Idx → EReal) (ix2 p k)
      = m ((c : Thread nD τ).loc main_arg0) (ix3 (⟨r.val / 2048, by omega⟩ : Fin 4) (⟨r.val % 2048, by omega⟩ : Fin 2048) k) := by
  obtain ⟨e0, e1, -⟩ := idx_facts t
  show (V1 m ρ c main_v0 : S8192x1024.Idx → EReal) (((cfg0.win 0).blk t).view.emb (ix2 p k)) = _
  rw [entry_input]
  refine shapeCast_apply (s := S4x2048x1024) (t := S8192x1024) _ _ _ _ ?_
  rw [Shape.rowMajor_val_two, Shape.rowMajor_val_three]
  show ((r.val / 2048) * 2048 + r.val % 2048) * 1024 + k.val
    = (win0_0.index t (0 : Fin 2) * 1024 + 1 * p.val) * 1024 + (win0_0.index t (1 : Fin 2) * 1024 + 1 * k.val)
  rw [e0, e1]; omega

/-- The weight block at every point is the whole weight argument. -/
theorem block_weight (c : Dev nD) (t : Fin cfg0.N) (k q : Fin 1024) :
    (iblk0 (V1 m ρ) c 1 t : S1024x1024.Idx → EReal) (ix2 k q) = m ((c : Thread nD τ).loc main_arg1) (ix2 k q) := by
  obtain ⟨-, -, e2, e3, -⟩ := idx_facts t
  show (V1 m ρ c main_v1 : S1024x1024.Idx → EReal) (((cfg0.win 1).blk t).view.emb (ix2 k q)) = _
  rw [entry_weight]
  refine congrArg _ (funext fun a => Fin.ext ?_)
  match a with
  | ⟨0, _⟩ => show win0_1.index t (0 : Fin 2) * 1024 + 1 * k.val = k.val; rw [e2]; omega
  | ⟨1, _⟩ => show win0_1.index t (1 : Fin 2) * 1024 + 1 * q.val = q.val; rw [e3]; omega

/-- Entry (0, q) of the bias block at every point is entry `q` of the bias argument. -/
theorem block_bias (c : Dev nD) (t : Fin cfg0.N) (q : Fin 1024) :
    (iblk0 (V1 m ρ) c 2 t : S1x1024.Idx → EReal) (ix2 (0 : Fin 1) q) = m ((c : Thread nD τ).loc main_arg2) (ix1 q) := by
  obtain ⟨-, -, -, -, e4, e5, -⟩ := idx_facts t
  show (V1 m ρ c main_v2 : S1x1024.Idx → EReal) (((cfg0.win 2).blk t).view.emb (ix2 (0 : Fin 1) q)) = _
  rw [entry_bias]
  refine shapeCast_apply (s := S1024) (t := S1x1024) _ _ _ _ ?_
  rw [Shape.rowMajor_val_one, Shape.rowMajor_val_two]
  show q.val = (win0_2.index t (0 : Fin 2) * 1 + 1 * 0) * 1024 + (win0_2.index t (1 : Fin 2) * 1024 + 1 * q.val)
  rw [e4, e5]; omega

/-- Entry (p, q) of what the body computes at point `t` is `projAt` at row `t · 1024 + p` and column `q`. -/
theorem block_apply (c : Dev nD) (t : Fin cfg0.N) (p q : Fin 1024) (r : Fin 8192) (e : Fin 1024)
    (hr : r.val = t.val * 1024 + p.val) (he : e.val = q.val) :
    k0_pay1 (iblk0 (V1 m ρ) c 0 t) (iblk0 (V1 m ρ) c 1 t) (iblk0 (V1 m ρ) c 2 t) (ix2 p q)
      = projAt (m ((c : Thread nD τ).loc main_arg0)) (m ((c : Thread nD τ).loc main_arg1)) (m ((c : Thread nD τ).loc main_arg2)) r e := by
  obtain rfl : e = q := Fin.ext he
  refine (pay_apply _ _ _ p e).trans ?_
  exact congrArg₂ (· + ·)
    (Finset.sum_congr rfl fun k _ => congrArg₂ (· * ·) (block_input m ρ c t p k r hr) (block_weight m ρ c t k e))
    (block_bias m ρ c t e)

/-- What point `t` writes back is block `t` of the projection: rows `t · 1024 … t · 1024 + 1023`, every column. -/
theorem flushed_eq (c : Dev nD) (t : Fin cfg0.N) :
    (dat0 (V1 m ρ) c).flushed 3 t = ((cfg0.win 3).blk t).view.read (Elt Ideal) (projArr m c) := by
  show (cfg0.win 3).cut (grid0.coords t) ((dat0 (V1 m ρ) c).after 3 t) = _
  rw [after0_3]
  unfold out0_3
  rw [View.canon_unit_zero zeroOffsets]
  simp only [View.ld_unit_zero (S := S1024x1024) zeroOffsets, View.ld_unit_zero (S := S1x1024) zeroOffsets]
  funext j
  obtain ⟨-, -, -, -, -, -, e6, e7⟩ := idx_facts t
  have hp : (j 0).val < 1024 := (j 0).isLt
  have hq : (j 1).val < 1024 := (j 1).isLt
  have hj : (win0 3).xinj (grid0.coords t) j = ix2 (⟨(j 0).val, hp⟩ : Fin 1024) (⟨(j 1).val, hq⟩ : Fin 1024) :=
    funext fun a => by
      match a with
      | ⟨0, _⟩ => rfl
      | ⟨1, _⟩ => rfl
  show k0_pay1 (iblk0 (V1 m ρ) c 0 t) (iblk0 (V1 m ρ) c 1 t) (iblk0 (V1 m ρ) c 2 t) ((win0 3).xinj (grid0.coords t) j)
    = projArr m c (((cfg0.win 3).blk t).view.emb j)
  rw [hj]
  refine block_apply m ρ c t ⟨(j 0).val, hp⟩ ⟨(j 1).val, hq⟩ _ _ ?_ ?_
  · show win0_3.index t (0 : Fin 2) * 1024 + 1 * (j 0).val = t.val * 1024 + (j 0).val
    rw [e6]; omega
  · show win0_3.index t (1 : Fin 2) * 1024 + 1 * (j 1).val = (j 1).val
    rw [e7]; omega

/-- An index of the output array is in point `t`'s block iff each coordinate is in the block's range on its axis. -/
theorem mem_blk (t : Fin cfg0.N) (i : S8192x1024.Idx) :
    i ∈ ((cfg0.win 3).blk t).view.set
      ↔ ∀ a : Fin 2, win0_3.index t a * S1024x1024.size a ≤ (i a).val
          ∧ (i a).val < win0_3.index t a * S1024x1024.size a + S1024x1024.size a := by
  show i ∈ ((View.whole main_v3).slice (win0_3.rect t)).set ↔ _
  rw [View.set_slice_whole, Rect.mem_set_unit]
  exact Iff.rfl

/-- Every entry of the output array is written: row `r` lies in the block of point `r / 1024`. -/
theorem covered (i : S8192x1024.Idx) :
    ∃ t : Fin cfg0.N, (cfg0.win 3).flush t = true ∧ i ∈ ((cfg0.win 3).blk t).view.set := by
  have hN : grid0.N = 8 := N_0
  have hi0 : (i 0).val < 8192 := (i 0).isLt
  have hi1 : (i 1).val < 1024 := (i 1).isLt
  obtain ⟨t, ht⟩ : ∃ t : Fin cfg0.N, t.val = (i 0).val / 1024 :=
    ⟨⟨(i 0).val / 1024, by show (i 0).val / 1024 < grid0.N; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 1024 ≤ (i 1).val ∧ (i 1).val < win0_3.index t (1 : Fin 2) * 1024 + 1024
    rw [e7]; omega

/-- After the first kernel its output array holds the projection: entry (r, e) is
    `(∑ d, x[r / 2048, r % 2048, d] · W[d, e]) + b[e]`. -/
theorem proj_final (c : Dev nD) :
    (dat0 (V1 m ρ) c).arrAt 3 cfg0.N
      = fun i : S8192x1024.Idx => projAt (m ((c : Thread nD τ).loc main_arg0)) (m ((c : Thread nD τ).loc main_arg1)) (m ((c : Thread nD τ).loc main_arg2))
          ⟨(i 0).val, (i 0).isLt⟩ ⟨(i 1).val, (i 1).isLt⟩ :=
  (dat0 (V1 m ρ) c).arrAt_eq_of_cover 3 (projArr m c) (fun t _ => flushed_eq m ρ c t) covered

end Cert.Attn.Proj

end
-- ==== Proof.Region1Body.lean ====
/-
  The second kernel's body at one grid point, as ONE pure term of the blocks it loads.

  At point (b, qi) the body reads, for each head h of the sixteen, the head's whole key block (rows 0..2047 of head h
  of the per-batch block, which are also its values) and the 256 query rows qi·256 .. qi·256+255 of the same head;
  it runs the same softmax-attention arithmetic on each pair, sets the sixteen [256, 64] results side by side, multiplies
  by the output weight, adds the bias row and stores the [1, 256, 1024] block. The printed body is cut into windows by
  statement count, so several heads are spread over two or three named pieces; unfolded, every head is the same
  function of its two loads.
-/
import proofs.«166996_j21715354648981_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Attn.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The key (and value) rows of head `h`: the slice [0, h, 0..2047, 0..63] of the per-batch block. -/
def keyBlk (x0 : Vec F S1x16x2048x64 .bf16) : Fin 16 → Vec F S1x1x2048x64 .bf16
  | ⟨0, _⟩ => View.ld x0 (Rect.unit (s := S1x16x2048x64) ![0, 0, 0, 0] S1x1x2048x64.size inb_S1x16x2048x64_S1x1x2048x64_0_0_0_0)
  | ⟨1, _⟩ => View.ld x0 (Rect.unit (s := S1x16x2048x64) ![0, 1, 0, 0] S1x1x2048x64.size inb_S1x16x2048x64_S1x1x2048x64_0_1_0_0)
  | ⟨2, _⟩ => View.ld x0 (Rect.unit (s := S1x16x2048x64) ![0, 2, 0, 0] S1x1x2048x64.size inb_S1x16x2048x64_S1x1x2048x64_0_2_0_0)
  | ⟨3, _⟩ => View.ld x0 (Rect.unit (s := S1x16x2048x64) ![0, 3, 0, 0] S1x1x2048x64.size inb_S1x16x2048x64_S1x1x2048x64_0_3_0_0)
  | ⟨4, _⟩ => View.ld x0 (Rect.unit (s := S1x16x2048x64) ![0, 4, 0, 0] S1x1x2048x64.size inb_S1x16x2048x64_S1x1x2048x64_0_4_0_0)
  | ⟨5, _⟩ => View.ld x0 (Rect.unit (s := S1x16x2048x64) ![0, 5, 0, 0] S1x1x2048x64.size inb_S1x16x2048x64_S1x1x2048x64_0_5_0_0)
  | ⟨6, _⟩ => View.ld x0 (Rect.unit (s := S1x16x2048x64) ![0, 6, 0, 0] S1x1x2048x64.size inb_S1x16x2048x64_S1x1x2048x64_0_6_0_0)
  | ⟨7, _⟩ => View.ld x0 (Rect.unit (s := S1x16x2048x64) ![0, 7, 0, 0] S1x1x2048x64.size inb_S1x16x2048x64_S1x1x2048x64_0_7_0_0)
  | ⟨8, _⟩ => View.ld x0 (Rect.unit (s := S1x16x2048x64) ![0, 8, 0, 0] S1x1x2048x64.size inb_S1x16x2048x64_S1x1x2048x64_0_8_0_0)
  | ⟨9, _⟩ => View.ld x0 (Rect.unit (s := S1x16x2048x64) ![0, 9, 0, 0] S1x1x2048x64.size inb_S1x16x2048x64_S1x1x2048x64_0_9_0_0)
  | ⟨10, _⟩ => View.ld x0 (Rect.unit (s := S1x16x2048x64) ![0, 10, 0, 0] S1x1x2048x64.size inb_S1x16x2048x64_S1x1x2048x64_0_10_0_0)
  | ⟨11, _⟩ => View.ld x0 (Rect.unit (s := S1x16x2048x64) ![0, 11, 0, 0] S1x1x2048x64.size inb_S1x16x2048x64_S1x1x2048x64_0_11_0_0)
  | ⟨12, _⟩ => View.ld x0 (Rect.unit (s := S1x16x2048x64) ![0, 12, 0, 0] S1x1x2048x64.size inb_S1x16x2048x64_S1x1x2048x64_0_12_0_0)
  | ⟨13, _⟩ => View.ld x0 (Rect.unit (s := S1x16x2048x64) ![0, 13, 0, 0] S1x1x2048x64.size inb_S1x16x2048x64_S1x1x2048x64_0_13_0_0)
  | ⟨14, _⟩ => View.ld x0 (Rect.unit (s := S1x16x2048x64) ![0, 14, 0, 0] S1x1x2048x64.size inb_S1x16x2048x64_S1x1x2048x64_0_14_0_0)
  | ⟨15, _⟩ => View.ld x0 (Rect.unit (s := S1x16x2048x64) ![0, 15, 0, 0] S1x1x2048x64.size inb_S1x16x2048x64_S1x1x2048x64_0_15_0_0)
  | ⟨_ + 16, h⟩ => absurd h (Nat.not_lt.2 (Nat.le_add_left _ _))

/-- The query rows of head `h` at grid point `i`: the slice [0, h, qi·256 .. qi·256+255, 0..63]. -/
def qryBlk (i : grid1.Coords) (x0 : Vec F S1x16x2048x64 .bf16) : Fin 16 → Vec F S1x1x256x64 .bf16
  | ⟨0, _⟩ => View.ld x0 (Rect.unit (s := S1x16x2048x64) (k1_off1 i) S1x1x256x64.size (k1_off1_inb i))
  | ⟨1, _⟩ => View.ld x0 (Rect.unit (s := S1x16x2048x64) (k1_off2 i) S1x1x256x64.size (k1_off2_inb i))
  | ⟨2, _⟩ => View.ld x0 (Rect.unit (s := S1x16x2048x64) (k1_off3 i) S1x1x256x64.size (k1_off3_inb i))
  | ⟨3, _⟩ => View.ld x0 (Rect.unit (s := S1x16x2048x64) (k1_off4 i) S1x1x256x64.size (k1_off4_inb i))
  | ⟨4, _⟩ => View.ld x0 (Rect.unit (s := S1x16x2048x64) (k1_off5 i) S1x1x256x64.size (k1_off5_inb i))
  | ⟨5, _⟩ => View.ld x0 (Rect.unit (s := S1x16x2048x64) (k1_off6 i) S1x1x256x64.size (k1_off6_inb i))
  | ⟨6, _⟩ => View.ld x0 (Rect.unit (s := S1x16x2048x64) (k1_off7 i) S1x1x256x64.size (k1_off7_inb i))
  | ⟨7, _⟩ => View.ld x0 (Rect.unit (s := S1x16x2048x64) (k1_off8 i) S1x1x256x64.size (k1_off8_inb i))
  | ⟨8, _⟩ => View.ld x0 (Rect.unit (s := S1x16x2048x64) (k1_off9 i) S1x1x256x64.size (k1_off9_inb i))
  | ⟨9, _⟩ => View.ld x0 (Rect.unit (s := S1x16x2048x64) (k1_off10 i) S1x1x256x64.size (k1_off10_inb i))
  | ⟨10, _⟩ => View.ld x0 (Rect.unit (s := S1x16x2048x64) (k1_off11 i) S1x1x256x64.size (k1_off11_inb i))
  | ⟨11, _⟩ => View.ld x0 (Rect.unit (s := S1x16x2048x64) (k1_off12 i) S1x1x256x64.size (k1_off12_inb i))
  | ⟨12, _⟩ => View.ld x0 (Rect.unit (s := S1x16x2048x64) (k1_off13 i) S1x1x256x64.size (k1_off13_inb i))
  | ⟨13, _⟩ => View.ld x0 (Rect.unit (s := S1x16x2048x64) (k1_off14 i) S1x1x256x64.size (k1_off14_inb i))
  | ⟨14, _⟩ => View.ld x0 (Rect.unit (s := S1x16x2048x64) (k1_off15 i) S1x1x256x64.size (k1_off15_inb i))
  | ⟨15, _⟩ => View.ld x0 (Rect.unit (s := S1x16x2048x64) (k1_off16 i) S1x1x256x64.size (k1_off16_inb i))
  | ⟨_ + 16, h⟩ => absurd h (Nat.not_lt.2 (Nat.le_add_left _ _))

/-- Head `h`'s [256, 64] output at grid point `i`. -/
def headsOf (i : grid1.Coords) (x0 : Vec F S1x16x2048x64 .bf16) (h : Fin 16) : FVec F S256x64 .bf16 :=
  k1_pay2 (keyBlk x0 h) (qryBlk i x0 h)

/-- What the body stores at grid point `i`: the heads side by side, times the output weight, plus the bias row. -/
def bodyOut (i : grid1.Coords) (x0 : Vec F S1x16x2048x64 .bf16) (x1 : Vec F S1024x1024 .bf16) (x2 : Vec F S1x1024 .f32) :
    FVec F S1x256x1024 .f32 :=
  k1_pay1
    (matmul dot_S256x1024_S1024x1024_S256x1024_1_0_0_1_n_n none
      (concatenate S256x1024 1 [⟨S256x64, headsOf i x0 0⟩, ⟨S256x64, headsOf i x0 1⟩, ⟨S256x64, headsOf i x0 2⟩, ⟨S256x64, headsOf i x0 3⟩, ⟨S256x64, headsOf i x0 4⟩, ⟨S256x64, headsOf i x0 5⟩, ⟨S256x64, headsOf i x0 6⟩, ⟨S256x64, headsOf i x0 7⟩, ⟨S256x64, headsOf i x0 8⟩, ⟨S256x64, headsOf i x0 9⟩, ⟨S256x64, headsOf i x0 10⟩, ⟨S256x64, headsOf i x0 11⟩, ⟨S256x64, headsOf i x0 12⟩, ⟨S256x64, headsOf i x0 13⟩, ⟨S256x64, headsOf i x0 14⟩, ⟨S256x64, headsOf i x0 15⟩] concatenates_S256x64_S256x64_S256x64_S256x64_S256x64_S256x64_S256x64_S256x64_S256x64_S256x64_S256x64_S256x64_S256x64_S256x64_S256x64_S256x64_S256x1024_d1)
      (shapeCast S1024x1024 x1 shapeCasts_S1024x1024_S1024x1024) (constant S256x1024 .f32 0x00000000#32))
    x2

set_option maxHeartbeats 1000000 in
/-- The block the frame's run leaves in the output's staging buffer is `bodyOut` of the three input blocks. -/
theorem out1_eq (c : Dev nD) (i : grid1.Coords) (arg2 : Memref sig .tc .vmem S1x16x2048x64 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x256x1024 .f32) (harg5 : arg5.IsWhole)
    (x0 : Vec F S1x16x2048x64 .bf16) (x1 : Vec F S1024x1024 .bf16) (x2 : Vec F S1x1024 .f32) :
    out1_A_3 (F := F) c i arg2 harg2 arg3 harg3 arg4 harg4 arg5 harg5 x0 x1 x2 = bodyOut i x0 x1 x2 := by
  unfold out1_A_3
  rw [View.read_writes_eq_canon _ _ _ (cover1_A_3 c i arg2 harg2 arg3 harg3 arg4 harg4 arg5 harg5 x0 x1 x2)]
  unfold kernelRun1_A
  dsimp only
  sl_unfold_words
  rw [View.canon_unit_zero hz3]
  simp only [View.readAt_eq_ld, harg2.read_unread, harg3.read_unread, harg4.read_unread,
    View.ld_unit_zero (S := S1024x1024) hz2, View.ld_unit_zero (S := S1x1024) hz2]
  rfl

end Cert.Attn.Body

end
-- ==== Proof.Region1Value.lean ====
/-
  The second kernel's result array, entry by entry.

  At grid point (b, qi) the body's stored block at (0, p, e) is
    ∑ j, feat_(j / 64) (p, j % 64) · Wo[j, e] + bo[0, e],
  where feat_h (p, ·) is one head's attention output on query row 256·qi + p of head h of the per-batch block, with the
  head's 2048 rows as keys and values. Read through the windows — batch b's [16, 2048, 64] slab, the whole weight, the
  whole bias row — and written back through the output window's block (b, qi, 0) of [256, 1024] rows, this is ONE
  function of the three arrays the kernel reads, the same at every point; the 32 blocks tile the [4, 2048, 1024] result.
-/
import proofs.«166996_j21715354648981_2_alg».proof.Proof.Region1Body
import proofs.«166996_j21715354648981_2_alg».proof.Proof.Spec
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.Attn.R1

open Cert.KernelIdeal Cert.KernelIdeal.Gen Cert.Attn Cert.Attn.Body

/-! ## The loaded blocks at an entry -/

/-- Head `h`'s key block at (k, d) is the per-batch block at [0, h, k, d]. -/
theorem keyBlk_apply (x0 : Vec Ideal S1x16x2048x64 .bf16) (h : Fin 16) (k : Fin 2048) (d : Fin 64) :
    keyBlk x0 h (ix4 (0 : Fin 1) (0 : Fin 1) k d) = x0 (ix4 (0 : Fin 1) h k d) := by
  match h with
  | ⟨0, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨1, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨2, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨3, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨4, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨5, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨6, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨7, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨8, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨9, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨10, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨11, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨12, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨13, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨14, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨15, _⟩ =>
    refine congrArg x0 (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega
  | ⟨_ + 16, hh⟩ => exact absurd hh (Nat.not_lt.2 (Nat.le_add_left _ _))

/-- Head `h`'s query block at (p, d), at grid point `i`, is the per-batch block at [0, h, 256·qi + p, d]. -/
theorem qryBlk_apply (i : grid1.Coords) (x0 : Vec Ideal S1x16x2048x64 .bf16) (h : Fin 16) (p : Fin 256) (d : Fin 64)
    (hq : 256 * (i 1).val + p.val < 2048) :
    qryBlk i x0 h (ix4 (0 : Fin 1) (0 : Fin 1) p d) = x0 (ix4 (0 : Fin 1) h (⟨256 * (i 1).val + p.val, hq⟩ : Fin 2048) d) := by
  match h with
  | ⟨0, _⟩ =>
    refine congrArg x0 (funext fun a => Fin.ext ?_)
    have e := k1_off1_eq i
    match a with
    | ⟨0, _⟩ => show (k1_off1 i) 0 + 1 * 0 = 0; rw [e]; rfl
    | ⟨1, _⟩ => show (k1_off1 i) 1 + 1 * 0 = 0; rw [e]; rfl
    | ⟨2, _⟩ => show (k1_off1 i) 2 + 1 * p.val = 256 * (i 1).val + p.val; rw [e]; show 256 * (i 1).val + 1 * p.val = _; omega
    | ⟨3, _⟩ => show (k1_off1 i) 3 + 1 * d.val = d.val; rw [e]; show 0 + 1 * d.val = _; omega
  | ⟨1, _⟩ =>
    refine congrArg x0 (funext fun a => Fin.ext ?_)
    have e := k1_off2_eq i
    match a with
    | ⟨0, _⟩ => show (k1_off2 i) 0 + 1 * 0 = 0; rw [e]; rfl
    | ⟨1, _⟩ => show (k1_off2 i) 1 + 1 * 0 = 1; rw [e]; rfl
    | ⟨2, _⟩ => show (k1_off2 i) 2 + 1 * p.val = 256 * (i 1).val + p.val; rw [e]; show 256 * (i 1).val + 1 * p.val = _; omega
    | ⟨3, _⟩ => show (k1_off2 i) 3 + 1 * d.val = d.val; rw [e]; show 0 + 1 * d.val = _; omega
  | ⟨2, _⟩ =>
    refine congrArg x0 (funext fun a => Fin.ext ?_)
    have e := k1_off3_eq i
    match a with
    | ⟨0, _⟩ => show (k1_off3 i) 0 + 1 * 0 = 0; rw [e]; rfl
    | ⟨1, _⟩ => show (k1_off3 i) 1 + 1 * 0 = 2; rw [e]; rfl
    | ⟨2, _⟩ => show (k1_off3 i) 2 + 1 * p.val = 256 * (i 1).val + p.val; rw [e]; show 256 * (i 1).val + 1 * p.val = _; omega
    | ⟨3, _⟩ => show (k1_off3 i) 3 + 1 * d.val = d.val; rw [e]; show 0 + 1 * d.val = _; omega
  | ⟨3, _⟩ =>
    refine congrArg x0 (funext fun a => Fin.ext ?_)
    have e := k1_off4_eq i
    match a with
    | ⟨0, _⟩ => show (k1_off4 i) 0 + 1 * 0 = 0; rw [e]; rfl
    | ⟨1, _⟩ => show (k1_off4 i) 1 + 1 * 0 = 3; rw [e]; rfl
    | ⟨2, _⟩ => show (k1_off4 i) 2 + 1 * p.val = 256 * (i 1).val + p.val; rw [e]; show 256 * (i 1).val + 1 * p.val = _; omega
    | ⟨3, _⟩ => show (k1_off4 i) 3 + 1 * d.val = d.val; rw [e]; show 0 + 1 * d.val = _; omega
  | ⟨4, _⟩ =>
    refine congrArg x0 (funext fun a => Fin.ext ?_)
    have e := k1_off5_eq i
    match a with
    | ⟨0, _⟩ => show (k1_off5 i) 0 + 1 * 0 = 0; rw [e]; rfl
    | ⟨1, _⟩ => show (k1_off5 i) 1 + 1 * 0 = 4; rw [e]; rfl
    | ⟨2, _⟩ => show (k1_off5 i) 2 + 1 * p.val = 256 * (i 1).val + p.val; rw [e]; show 256 * (i 1).val + 1 * p.val = _; omega
    | ⟨3, _⟩ => show (k1_off5 i) 3 + 1 * d.val = d.val; rw [e]; show 0 + 1 * d.val = _; omega
  | ⟨5, _⟩ =>
    refine congrArg x0 (funext fun a => Fin.ext ?_)
    have e := k1_off6_eq i
    match a with
    | ⟨0, _⟩ => show (k1_off6 i) 0 + 1 * 0 = 0; rw [e]; rfl
    | ⟨1, _⟩ => show (k1_off6 i) 1 + 1 * 0 = 5; rw [e]; rfl
    | ⟨2, _⟩ => show (k1_off6 i) 2 + 1 * p.val = 256 * (i 1).val + p.val; rw [e]; show 256 * (i 1).val + 1 * p.val = _; omega
    | ⟨3, _⟩ => show (k1_off6 i) 3 + 1 * d.val = d.val; rw [e]; show 0 + 1 * d.val = _; omega
  | ⟨6, _⟩ =>
    refine congrArg x0 (funext fun a => Fin.ext ?_)
    have e := k1_off7_eq i
    match a with
    | ⟨0, _⟩ => show (k1_off7 i) 0 + 1 * 0 = 0; rw [e]; rfl
    | ⟨1, _⟩ => show (k1_off7 i) 1 + 1 * 0 = 6; rw [e]; rfl
    | ⟨2, _⟩ => show (k1_off7 i) 2 + 1 * p.val = 256 * (i 1).val + p.val; rw [e]; show 256 * (i 1).val + 1 * p.val = _; omega
    | ⟨3, _⟩ => show (k1_off7 i) 3 + 1 * d.val = d.val; rw [e]; show 0 + 1 * d.val = _; omega
  | ⟨7, _⟩ =>
    refine congrArg x0 (funext fun a => Fin.ext ?_)
    have e := k1_off8_eq i
    match a with
    | ⟨0, _⟩ => show (k1_off8 i) 0 + 1 * 0 = 0; rw [e]; rfl
    | ⟨1, _⟩ => show (k1_off8 i) 1 + 1 * 0 = 7; rw [e]; rfl
    | ⟨2, _⟩ => show (k1_off8 i) 2 + 1 * p.val = 256 * (i 1).val + p.val; rw [e]; show 256 * (i 1).val + 1 * p.val = _; omega
    | ⟨3, _⟩ => show (k1_off8 i) 3 + 1 * d.val = d.val; rw [e]; show 0 + 1 * d.val = _; omega
  | ⟨8, _⟩ =>
    refine congrArg x0 (funext fun a => Fin.ext ?_)
    have e := k1_off9_eq i
    match a with
    | ⟨0, _⟩ => show (k1_off9 i) 0 + 1 * 0 = 0; rw [e]; rfl
    | ⟨1, _⟩ => show (k1_off9 i) 1 + 1 * 0 = 8; rw [e]; rfl
    | ⟨2, _⟩ => show (k1_off9 i) 2 + 1 * p.val = 256 * (i 1).val + p.val; rw [e]; show 256 * (i 1).val + 1 * p.val = _; omega
    | ⟨3, _⟩ => show (k1_off9 i) 3 + 1 * d.val = d.val; rw [e]; show 0 + 1 * d.val = _; omega
  | ⟨9, _⟩ =>
    refine congrArg x0 (funext fun a => Fin.ext ?_)
    have e := k1_off10_eq i
    match a with
    | ⟨0, _⟩ => show (k1_off10 i) 0 + 1 * 0 = 0; rw [e]; rfl
    | ⟨1, _⟩ => show (k1_off10 i) 1 + 1 * 0 = 9; rw [e]; rfl
    | ⟨2, _⟩ => show (k1_off10 i) 2 + 1 * p.val = 256 * (i 1).val + p.val; rw [e]; show 256 * (i 1).val + 1 * p.val = _; omega
    | ⟨3, _⟩ => show (k1_off10 i) 3 + 1 * d.val = d.val; rw [e]; show 0 + 1 * d.val = _; omega
  | ⟨10, _⟩ =>
    refine congrArg x0 (funext fun a => Fin.ext ?_)
    have e := k1_off11_eq i
    match a with
    | ⟨0, _⟩ => show (k1_off11 i) 0 + 1 * 0 = 0; rw [e]; rfl
    | ⟨1, _⟩ => show (k1_off11 i) 1 + 1 * 0 = 10; rw [e]; rfl
    | ⟨2, _⟩ => show (k1_off11 i) 2 + 1 * p.val = 256 * (i 1).val + p.val; rw [e]; show 256 * (i 1).val + 1 * p.val = _; omega
    | ⟨3, _⟩ => show (k1_off11 i) 3 + 1 * d.val = d.val; rw [e]; show 0 + 1 * d.val = _; omega
  | ⟨11, _⟩ =>
    refine congrArg x0 (funext fun a => Fin.ext ?_)
    have e := k1_off12_eq i
    match a with
    | ⟨0, _⟩ => show (k1_off12 i) 0 + 1 * 0 = 0; rw [e]; rfl
    | ⟨1, _⟩ => show (k1_off12 i) 1 + 1 * 0 = 11; rw [e]; rfl
    | ⟨2, _⟩ => show (k1_off12 i) 2 + 1 * p.val = 256 * (i 1).val + p.val; rw [e]; show 256 * (i 1).val + 1 * p.val = _; omega
    | ⟨3, _⟩ => show (k1_off12 i) 3 + 1 * d.val = d.val; rw [e]; show 0 + 1 * d.val = _; omega
  | ⟨12, _⟩ =>
    refine congrArg x0 (funext fun a => Fin.ext ?_)
    have e := k1_off13_eq i
    match a with
    | ⟨0, _⟩ => show (k1_off13 i) 0 + 1 * 0 = 0; rw [e]; rfl
    | ⟨1, _⟩ => show (k1_off13 i) 1 + 1 * 0 = 12; rw [e]; rfl
    | ⟨2, _⟩ => show (k1_off13 i) 2 + 1 * p.val = 256 * (i 1).val + p.val; rw [e]; show 256 * (i 1).val + 1 * p.val = _; omega
    | ⟨3, _⟩ => show (k1_off13 i) 3 + 1 * d.val = d.val; rw [e]; show 0 + 1 * d.val = _; omega
  | ⟨13, _⟩ =>
    refine congrArg x0 (funext fun a => Fin.ext ?_)
    have e := k1_off14_eq i
    match a with
    | ⟨0, _⟩ => show (k1_off14 i) 0 + 1 * 0 = 0; rw [e]; rfl
    | ⟨1, _⟩ => show (k1_off14 i) 1 + 1 * 0 = 13; rw [e]; rfl
    | ⟨2, _⟩ => show (k1_off14 i) 2 + 1 * p.val = 256 * (i 1).val + p.val; rw [e]; show 256 * (i 1).val + 1 * p.val = _; omega
    | ⟨3, _⟩ => show (k1_off14 i) 3 + 1 * d.val = d.val; rw [e]; show 0 + 1 * d.val = _; omega
  | ⟨14, _⟩ =>
    refine congrArg x0 (funext fun a => Fin.ext ?_)
    have e := k1_off15_eq i
    match a with
    | ⟨0, _⟩ => show (k1_off15 i) 0 + 1 * 0 = 0; rw [e]; rfl
    | ⟨1, _⟩ => show (k1_off15 i) 1 + 1 * 0 = 14; rw [e]; rfl
    | ⟨2, _⟩ => show (k1_off15 i) 2 + 1 * p.val = 256 * (i 1).val + p.val; rw [e]; show 256 * (i 1).val + 1 * p.val = _; omega
    | ⟨3, _⟩ => show (k1_off15 i) 3 + 1 * d.val = d.val; rw [e]; show 0 + 1 * d.val = _; omega
  | ⟨15, _⟩ =>
    refine congrArg x0 (funext fun a => Fin.ext ?_)
    have e := k1_off16_eq i
    match a with
    | ⟨0, _⟩ => show (k1_off16 i) 0 + 1 * 0 = 0; rw [e]; rfl
    | ⟨1, _⟩ => show (k1_off16 i) 1 + 1 * 0 = 15; rw [e]; rfl
    | ⟨2, _⟩ => show (k1_off16 i) 2 + 1 * p.val = 256 * (i 1).val + p.val; rw [e]; show 256 * (i 1).val + 1 * p.val = _; omega
    | ⟨3, _⟩ => show (k1_off16 i) 3 + 1 * d.val = d.val; rw [e]; show 0 + 1 * d.val = _; omega
  | ⟨_ + 16, hh⟩ => exact absurd hh (Nat.not_lt.2 (Nat.le_add_left _ _))

/-! ## The stored block at an entry -/

/-- The body's block at (0, p, e): the heads' features against the output weight, plus the bias — given one head read
    at an entry (`Hhead`) and the concatenate–project–add tail read at an entry (`Hout`). -/
theorem bodyOut_apply
    (Hhead : ∀ (K : Vec Ideal S1x1x2048x64 .bf16) (Q : Vec Ideal S1x1x256x64 .bf16) (p : Fin 256) (d : Fin 64),
      k1_pay2 (F := Ideal) K Q (ix2 p d)
        = headFeat (fun k d' => K (ix4 (0 : Fin 1) (0 : Fin 1) k d')) (fun d' => Q (ix4 (0 : Fin 1) (0 : Fin 1) p d')) d)
    (Hout : ∀ (hs : Fin 16 → FVec Ideal S256x64 .bf16) (wo : Vec Ideal S1024x1024 .bf16) (bo : Vec Ideal S1x1024 .f32) (p : Fin 256) (e : Fin 1024),
      k1_pay1 (F := Ideal)
          (matmul dot_S256x1024_S1024x1024_S256x1024_1_0_0_1_n_n none
            (concatenate S256x1024 1 [⟨S256x64, hs 0⟩, ⟨S256x64, hs 1⟩, ⟨S256x64, hs 2⟩, ⟨S256x64, hs 3⟩, ⟨S256x64, hs 4⟩, ⟨S256x64, hs 5⟩, ⟨S256x64, hs 6⟩, ⟨S256x64, hs 7⟩, ⟨S256x64, hs 8⟩, ⟨S256x64, hs 9⟩, ⟨S256x64, hs 10⟩, ⟨S256x64, hs 11⟩, ⟨S256x64, hs 12⟩, ⟨S256x64, hs 13⟩, ⟨S256x64, hs 14⟩, ⟨S256x64, hs 15⟩] concatenates_S256x64_S256x64_S256x64_S256x64_S256x64_S256x64_S256x64_S256x64_S256x64_S256x64_S256x64_S256x64_S256x64_S256x64_S256x64_S256x64_S256x1024_d1)
            (shapeCast S1024x1024 wo shapeCasts_S1024x1024_S1024x1024 : FVec Ideal S1024x1024 .bf16) (constant S256x1024 .f32 0x00000000#32))
          bo (ix3 (0 : Fin 1) p e)
        = (∑ j : Fin 1024, hs ⟨j.val / 64, by omega⟩ (ix2 p ⟨j.val % 64, by omega⟩) * wo (ix2 j e)) + bo (ix2 (0 : Fin 1) e))
    (i : grid1.Coords) (x0 : Vec Ideal S1x16x2048x64 .bf16) (x1 : Vec Ideal S1024x1024 .bf16) (x2 : Vec Ideal S1x1024 .f32)
    (p : Fin 256) (e : Fin 1024) (hq : 256 * (i 1).val + p.val < 2048) :
    bodyOut (F := Ideal) i x0 x1 x2 (ix3 (0 : Fin 1) p e)
      = (∑ j : Fin 1024,
            headFeat (fun k d' => x0 (ix4 (0 : Fin 1) (⟨j.val / 64, by omega⟩ : Fin 16) k d'))
              (fun d' => x0 (ix4 (0 : Fin 1) (⟨j.val / 64, by omega⟩ : Fin 16) (⟨256 * (i 1).val + p.val, hq⟩ : Fin 2048) d'))
              (⟨j.val % 64, by omega⟩ : Fin 64) * x1 (ix2 j e))
          + x2 (ix2 (0 : Fin 1) e) := by
  unfold bodyOut
  rw [Hout (headsOf i x0) x1 x2 p e]
  refine congrArg (· + x2 (ix2 (0 : Fin 1) e)) (Finset.sum_congr rfl fun j _ => congrArg (· * x1 (ix2 j e)) ?_)
  unfold headsOf
  rw [Hhead]
  congr 1
  · funext k d'; exact keyBlk_apply x0 _ k d'
  · funext d'; exact qryBlk_apply i x0 _ p d' hq

/-! ## The whole result as one function of the three arrays the kernel reads -/

/-- Entry (bb, s, e) of the result from the projection read as [4, 16, 2048, 64] (`A4`), the output weight (`A5`) and
    the output bias row (`A6`): every head `j / 64` attends from row `s` over its 2048 rows; feature `j % 64` meets
    row `j` of the weight. -/
def attnOf (A4 : S4x16x2048x64.Idx → EReal) (A5 : S1024x1024.Idx → EReal) (A6 : S1x1024.Idx → EReal)
    (bb : Fin 4) (s : Fin 2048) (e : Fin 1024) : EReal :=
  (∑ j : Fin 1024,
      headFeat (fun k d' => A4 (ix4 bb (⟨j.val / 64, by omega⟩ : Fin 16) k d'))
        (fun d' => A4 (ix4 bb (⟨j.val / 64, by omega⟩ : Fin 16) s d')) (⟨j.val % 64, by omega⟩ : Fin 64) * A5 (ix2 j e))
    + A6 (ix2 (0 : Fin 1) e)

/-- The result array. -/
def attnArr (A4 : S4x16x2048x64.Idx → EReal) (A5 : S1024x1024.Idx → EReal) (A6 : S1x1024.Idx → EReal) :
    S4x2048x1024.Idx → EReal :=
  fun i => attnOf A4 A5 A6 ⟨(i 0).val, (i 0).isLt⟩ ⟨(i 1).val, (i 1).isLt⟩ ⟨(i 2).val, (i 2).isLt⟩

/-- The array at an index whose coordinates are known. -/
theorem attnArr_apply (A4 : S4x16x2048x64.Idx → EReal) (A5 : S1024x1024.Idx → EReal) (A6 : S1x1024.Idx → EReal)
    (i : S4x2048x1024.Idx) (bb : Fin 4) (s : Fin 2048) (e : Fin 1024)
    (h0 : (i 0).val = bb.val) (h1 : (i 1).val = s.val) (h2 : (i 2).val = e.val) :
    attnArr A4 A5 A6 i = attnOf A4 A5 A6 bb s e := by
  unfold attnArr
  have e0 : (⟨(i 0).val, (i 0).isLt⟩ : Fin 4) = bb := Fin.ext h0
  have e1 : (⟨(i 1).val, (i 1).isLt⟩ : Fin 2048) = s := Fin.ext h1
  have e2 : (⟨(i 2).val, (i 2).isLt⟩ : Fin 1024) = e := Fin.ext h2
  rw [e0, e1, e2]

/-! ## From the blocks to the array -/

section Blocks

variable (V : (c : Dev nD) → (b : Ref sig .tc) → Buf (Elt Ideal) ((c : Thread nD τ).loc b))

/-- The printed index maps, decided over the 32 grid points: the output block sits at (b, qi, 0), the per-batch slab
    at (b, 0, 0, 0), the weight and the bias row at the origin; and the point's coordinates are in range. -/
theorem idx_facts : ∀ t : Fin cfg1.N,
    win1_3.index t (0 : Fin 3) = (grid1.coords t 0).val ∧ win1_3.index t (1 : Fin 3) = (grid1.coords t 1).val
    ∧ win1_3.index t (2 : Fin 3) = 0
    ∧ win1_0.index t (0 : Fin 4) = (grid1.coords t 0).val ∧ win1_0.index t (1 : Fin 4) = 0
    ∧ win1_0.index t (2 : Fin 4) = 0 ∧ win1_0.index t (3 : Fin 4) = 0
    ∧ win1_1.index t (0 : Fin 2) = 0 ∧ win1_1.index t (1 : Fin 2) = 0
    ∧ win1_2.index t (0 : Fin 2) = 0 ∧ win1_2.index t (1 : Fin 2) = 0
    ∧ (grid1.coords t 0).val < 4 ∧ (grid1.coords t 1).val < 8 :=
  (by decide +kernel : ∀ t : Fin grid1.N, _)

/-- Every (batch, row-tile) pair is some point's output block. -/
theorem idx_onto : ∀ (q0 : Fin 4) (q1 : Fin 8), ∃ t : Fin cfg1.N, win1_3.index t = ![q0.val, q1.val, 0] :=
  (by decide +kernel : ∀ (q0 : Fin 4) (q1 : Fin 8), ∃ t : Fin grid1.N, win1_3.index t = ![q0.val, q1.val, 0])

/-- What point `t` writes back is block `t` of `attnArr` of the arrays as the kernel finds them. -/
theorem flushed_eq
    (Hhead : ∀ (K : Vec Ideal S1x1x2048x64 .bf16) (Q : Vec Ideal S1x1x256x64 .bf16) (p : Fin 256) (d : Fin 64),
      k1_pay2 (F := Ideal) K Q (ix2 p d)
        = headFeat (fun k d' => K (ix4 (0 : Fin 1) (0 : Fin 1) k d')) (fun d' => Q (ix4 (0 : Fin 1) (0 : Fin 1) p d')) d)
    (Hout : ∀ (hs : Fin 16 → FVec Ideal S256x64 .bf16) (wo : Vec Ideal S1024x1024 .bf16) (bo : Vec Ideal S1x1024 .f32) (p : Fin 256) (e : Fin 1024),
      k1_pay1 (F := Ideal)
          (matmul dot_S256x1024_S1024x1024_S256x1024_1_0_0_1_n_n none
            (concatenate S256x1024 1 [⟨S256x64, hs 0⟩, ⟨S256x64, hs 1⟩, ⟨S256x64, hs 2⟩, ⟨S256x64, hs 3⟩, ⟨S256x64, hs 4⟩, ⟨S256x64, hs 5⟩, ⟨S256x64, hs 6⟩, ⟨S256x64, hs 7⟩, ⟨S256x64, hs 8⟩, ⟨S256x64, hs 9⟩, ⟨S256x64, hs 10⟩, ⟨S256x64, hs 11⟩, ⟨S256x64, hs 12⟩, ⟨S256x64, hs 13⟩, ⟨S256x64, hs 14⟩, ⟨S256x64, hs 15⟩] concatenates_S256x64_S256x64_S256x64_S256x64_S256x64_S256x64_S256x64_S256x64_S256x64_S256x64_S256x64_S256x64_S256x64_S256x64_S256x64_S256x64_S256x1024_d1)
            (shapeCast S1024x1024 wo shapeCasts_S1024x1024_S1024x1024 : FVec Ideal S1024x1024 .bf16) (constant S256x1024 .f32 0x00000000#32))
          bo (ix3 (0 : Fin 1) p e)
        = (∑ j : Fin 1024, hs ⟨j.val / 64, by omega⟩ (ix2 p ⟨j.val % 64, by omega⟩) * wo (ix2 j e)) + bo (ix2 (0 : Fin 1) e))
    (c : Dev nD) (t : Fin cfg1.N) :
    (dat1 V c).flushed 3 t
      = ((cfg1.win 3).blk t).view.read (Elt Ideal) (attnArr (V c main_v4) (V c main_v5) (V c main_v6)) := by
  show (cfg1.win 3).cut (grid1.coords t) ((dat1 V c).after 3 t) = _
  rw [after1_3]
  unfold outsAt1
  rw [out1_eq]
  obtain ⟨e0, e1, e2, f0, f1, f2, f3, g0, g1, k0, k1, hb, hq⟩ := idx_facts t
  funext y
  obtain ⟨u, p, e, rfl⟩ : ∃ (u : Fin 1) (p : Fin 256) (e : Fin 1024), y = ix3 u p e := ⟨y 0, y 1, y 2, eq_ix3 y⟩
  obtain rfl : u = 0 := Subsingleton.elim _ _
  have hq' : 256 * (grid1.coords t 1).val + p.val < 2048 := by omega
  have hx0 : ∀ (h : Fin 16) (k : Fin 2048) (d : Fin 64),
      iblk1 V c 0 t (ix4 (0 : Fin 1) h k d)
        = V c main_v4 (ix4 (⟨(grid1.coords t 0).val, hb⟩ : Fin 4) h k d) := by
    intro h k d
    show V c main_v4 (((cfg1.win 0).blk t).view.emb (ix4 (0 : Fin 1) h k d)) = _
    refine congrArg (V c main_v4) (funext fun a => Fin.ext ?_)
    match a with
    | ⟨0, _⟩ => show win1_0.index t (0 : Fin 4) * 1 + 1 * 0 = (grid1.coords t 0).val; omega
    | ⟨1, _⟩ => show win1_0.index t (1 : Fin 4) * 16 + 1 * h.val = h.val; omega
    | ⟨2, _⟩ => show win1_0.index t (2 : Fin 4) * 2048 + 1 * k.val = k.val; omega
    | ⟨3, _⟩ => show win1_0.index t (3 : Fin 4) * 64 + 1 * d.val = d.val; omega
  have hx1 : ∀ (j e' : Fin 1024), iblk1 V c 1 t (ix2 j e') = V c main_v5 (ix2 j e') := by
    intro j e'
    show V c main_v5 (((cfg1.win 1).blk t).view.emb (ix2 j e')) = _
    refine congrArg (V c main_v5) (funext fun a => Fin.ext ?_)
    match a with
    | ⟨0, _⟩ => show win1_1.index t (0 : Fin 2) * 1024 + 1 * j.val = j.val; omega
    | ⟨1, _⟩ => show win1_1.index t (1 : Fin 2) * 1024 + 1 * e'.val = e'.val; omega
  have hx2 : ∀ (e' : Fin 1024), iblk1 V c 2 t (ix2 (0 : Fin 1) e') = V c main_v6 (ix2 (0 : Fin 1) e') := by
    intro e'
    show V c main_v6 (((cfg1.win 2).blk t).view.emb (ix2 (0 : Fin 1) e')) = _
    refine congrArg (V c main_v6) (funext fun a => Fin.ext ?_)
    match a with
    | ⟨0, _⟩ => show win1_2.index t (0 : Fin 2) * 1 + 1 * 0 = 0; omega
    | ⟨1, _⟩ => show win1_2.index t (1 : Fin 2) * 1024 + 1 * e'.val = e'.val; omega
  show bodyOut (F := Ideal) (grid1.coords t) (iblk1 V c 0 t) (iblk1 V c 1 t) (iblk1 V c 2 t) (ix3 (0 : Fin 1) p e)
      = attnArr (V c main_v4) (V c main_v5) (V c main_v6) (((cfg1.win 3).blk t).view.emb (ix3 (0 : Fin 1) p e))
  rw [bodyOut_apply Hhead Hout (grid1.coords t) _ _ _ p e hq',
    attnArr_apply _ _ _ _ (⟨(grid1.coords t 0).val, hb⟩ : Fin 4) (⟨256 * (grid1.coords t 1).val + p.val, hq'⟩ : Fin 2048) e
      (by show win1_3.index t (0 : Fin 3) * 1 + 1 * 0 = (grid1.coords t 0).val; omega)
      (by show win1_3.index t (1 : Fin 3) * 256 + 1 * p.val = 256 * (grid1.coords t 1).val + p.val; omega)
      (by show win1_3.index t (2 : Fin 3) * 1024 + 1 * e.val = e.val; omega)]
  unfold attnOf
  simp only [hx0, hx1, hx2]

/-- An index of the result is in point `t`'s block iff each coordinate is in the block's range on its axis. -/
theorem mem_blk (t : Fin cfg1.N) (i : S4x2048x1024.Idx) :
    i ∈ ((cfg1.win 3).blk t).view.set ↔ ∀ a : Fin 3, win1_3.index t a * S1x256x1024.size a ≤ (i a).val
      ∧ (i a).val < win1_3.index t a * S1x256x1024.size a + S1x256x1024.size a := by
  show i ∈ ((View.whole main_v7).slice (win1_3.rect t)).set ↔ _
  rw [View.set_slice_whole, Rect.mem_set_unit]
  exact Iff.rfl

/-- The 32 output blocks tile the result: row `s` of batch `b` is in the block of point (b, s / 256). -/
theorem cover (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 1024 ≤ (i 2).val ∧ (i 2).val < win1_3.index t (2 : Fin 3) * 1024 + 1024; omega

/-- The result array after the second kernel: `attnArr` of the three arrays it reads. -/
theorem final
    (Hhead : ∀ (K : Vec Ideal S1x1x2048x64 .bf16) (Q : Vec Ideal S1x1x256x64 .bf16) (p : Fin 256) (d : Fin 64),
      k1_pay2 (F := Ideal) K Q (ix2 p d)
        = headFeat (fun k d' => K (ix4 (0 : Fin 1) (0 : Fin 1) k d')) (fun d' => Q (ix4 (0 : Fin 1) (0 : Fin 1) p d')) d)
    (Hout : ∀ (hs : Fin 16 → FVec Ideal S256x64 .bf16) (wo : Vec Ideal S1024x1024 .bf16) (bo : Vec Ideal S1x1024 .f32) (p : Fin 256) (e : Fin 1024),
      k1_pay1 (F := Ideal)
          (matmul dot_S256x1024_S1024x1024_S256x1024_1_0_0_1_n_n none
            (concatenate S256x1024 1 [⟨S256x64, hs 0⟩, ⟨S256x64, hs 1⟩, ⟨S256x64, hs 2⟩, ⟨S256x64, hs 3⟩, ⟨S256x64, hs 4⟩, ⟨S256x64, hs 5⟩, ⟨S256x64, hs 6⟩, ⟨S256x64, hs 7⟩, ⟨S256x64, hs 8⟩, ⟨S256x64, hs 9⟩, ⟨S256x64, hs 10⟩, ⟨S256x64, hs 11⟩, ⟨S256x64, hs 12⟩, ⟨S256x64, hs 13⟩, ⟨S256x64, hs 14⟩, ⟨S256x64, hs 15⟩] concatenates_S256x64_S256x64_S256x64_S256x64_S256x64_S256x64_S256x64_S256x64_S256x64_S256x64_S256x64_S256x64_S256x64_S256x64_S256x64_S256x64_S256x1024_d1)
            (shapeCast S1024x1024 wo shapeCasts_S1024x1024_S1024x1024 : FVec Ideal S1024x1024 .bf16) (constant S256x1024 .f32 0x00000000#32))
          bo (ix3 (0 : Fin 1) p e)
        = (∑ j : Fin 1024, hs ⟨j.val / 64, by omega⟩ (ix2 p ⟨j.val % 64, by omega⟩) * wo (ix2 j e)) + bo (ix2 (0 : Fin 1) e))
    (c : Dev nD) :
    (dat1 V c).arrAt 3 cfg1.N = attnArr (V c main_v4) (V c main_v5) (V c main_v6) :=
  (dat1 V c).arrAt_eq_of_cover 3 _ (fun t _ => flushed_eq V Hhead Hout c t) cover

end Blocks

end Cert.Attn.R1

end
-- ==== Proof.LibColumnForms.lean ====
/-
  Two layout operations read at an index given by coordinates, for any extents `a`, `b` and any element type: the
  COLUMN forms that a sum kept as a column (`keepdims` along the last axis) goes through.

  • a vector `[a]` viewed as a column `[a, 1]` reads, at `(i, u)`, the vector at `i` (the unit coordinate `u` is `0`, so
    both indices have row-major position `i`);
  • a column `[a, 1]` broadcast along the second axis to `[a, b]` reads, at `(p, c)`, the column at `(p, 0)`: the
    operand's second axis is a unit axis, so its coordinate is `0` whatever `c` is, and its first axis keeps `p`
    (when `a` itself is `1` the only `p` is `0`).

  The row forms (`[a]` as `[1, a]`, `[1, b]` over `[a, b]`) are the library's `shapeCast_a_1a_apply` and
  `broadcastTo_1b_ab_apply`.
-/
import Idealize.ShloMosaic.Lib.ValueLayout

namespace Cert.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.HeadValue.lean ====
/-
  One head of the attention kernel, read at an entry.

  The kernel computes a head as one pure term of two loaded blocks: the keys `K : [1, 1, 2048, 64]` (which are also
  the values) and 256 query rows `Q : [1, 1, 256, 64]`. With the two leading unit axes dropped the term is four stages:

  * the scores `s[p, k] = (∑ d', Q[p, d'] · K[k, d']) · ⅛` — the product of `Q` with the transpose of `K` into a
    zero accumulator, times the splat of the pattern of 0.125;
  * the shifted exponentials `e[p, k] = exp (s[p, k] − max_k' s[p, k'])` — the row maximum is a reduction along
    axis 1 from the pattern of `-inf`, kept as a column `[256, 1]` and broadcast back along the row;
  * the weights `a[p, k] = e[p, k] / ∑ k', e[p, k']` — the row sum goes through the same column forms; the change of
    float format that follows does nothing to an extended real;
  * the result `out[p, d] = ∑ k, a[p, k] · K[k, d]` — a second product into a zero accumulator.

  Each stage is named and read at an entry `(p, k)` given by its two coordinates; `head_apply` composes them: entry
  `(p, d)` of the head is `headFeat` of the key rows `k ↦ K[0, 0, k, ·]` and the query row `Q[0, 0, p, ·]`, feature
  `d`. The specification's `headScore`, `headMax`, `headExp`, `headFeat` are these readings word for word (factor
  order and the two literal patterns included), so after the stages are rewritten the two sides are the same term and
  no literal is ever evaluated.
-/
import proofs.«166996_j21715354648981_2_alg».proof.Proof.Gen.KernelIdeal.Skeleton
import proofs.«166996_j21715354648981_2_alg».proof.Proof.Spec
import proofs.«166996_j21715354648981_2_alg».proof.Proof.LibColumnForms
import proofs.«166996_j21715354648981_2_alg».proof.Proof.LibRowLayers
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.Attn.Head

open Cert.KernelIdeal Cert.KernelIdeal.Gen Cert.Attn Idealize.ShloMosaic Idealize.ShloMosaic.ValueIdx
/-! ## The four stages of a head, as functions of arrays `[2048, 64]` and `[256, 64]` -/

/-- The scaled scores `[256, 2048]`: the query rows times the transposed keys, times the splat of the pattern of
    0.125. -/
def scores (Kc : FVec Ideal S2048x64 .bf16) (Qc : FVec Ideal S256x64 .bf16) : FVec Ideal S256x2048 .f32 :=
  mulf (matmul dot_S256x64_S64x2048_S256x2048_1_0_0_1_n_n none Qc
          (transpose S64x2048 [1, 0] Kc transposes_S2048x64_p1_0_S64x2048)
          (constant (F := Ideal) S256x2048 .f32 0x00000000#32))
       (broadcast S256x2048 (Scalar.ofBits (F := Ideal) .f32 0x3E000000#32))

/-- The exponentials of the entries shifted by their row's maximum (the maximum kept as a column and broadcast back). -/
def expo (s : FVec Ideal S256x2048 .f32) : FVec Ideal S256x2048 .f32 :=
  exp (subf s (broadcastTo S256x2048
    (shapeCast S256x1 (multiReduction (F := Ideal) .maximumf [1] S256 s 0xFF800000#32 reduces_S256x2048_S256 (.inl rfl) rfl)
      shapeCasts_S256_S256x1) broadcasts_S256x1_S256x2048))

/-- The entries divided by their row's sum (the sum kept as a column and broadcast back), in the narrower format. -/
def weights (e : FVec Ideal S256x2048 .f32) : FVec Ideal S256x2048 .bf16 :=
  truncf .bf16 (divf e (broadcastTo S256x2048
    (shapeCast S256x1 (multiReduction (F := Ideal) .add [1] S256 e 0x00000000#32 reduces_S256x2048_S256 (.inl rfl) rfl)
      shapeCasts_S256_S256x1) broadcasts_S256x1_S256x2048)) bitsLt_bf16_f32

/-- The weights times the values `[2048, 64]`, in the narrower format. -/
def mix (a : FVec Ideal S256x2048 .bf16) (Kc : FVec Ideal S2048x64 .bf16) : FVec Ideal S256x64 .bf16 :=
  truncf .bf16 (matmul dot_S256x2048_S2048x64_S256x64_1_0_0_1_n_n none a Kc
    (constant (F := Ideal) S256x64 .f32 0x00000000#32)) bitsLt_bf16_f32

/-! ## Layout: the two leading unit axes dropped -/

section Layout
variable {α : Type}

/-- A `[1, 1, a, b]` array cast to `[a, b]` reads, at `(i, j)`, the operand at `(0, 0, i, j)`: both indices have
    row-major position `i · b + j`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

end Layout

/-! ## The two products are "rows times columns" -/

/-- The scores' product contracts the 64 features: left operand at (row, feature), right at (feature, key). -/
theorem scoreDims : RowLayers.RowsTimesCols dot_S256x64_S64x2048_S256x2048_1_0_0_1_n_n where
  rank := rfl
  size := rfl
  lhs0 := fun j q => by
    unfold DotDims.lhsIdx
    rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
    rfl
  lhs1 := fun j q => dot_S256x64_S64x2048_S256x2048_1_0_0_1_n_n.lhsIdx_val_of_single rfl j q
  rhs0 := fun j q => dot_S256x64_S64x2048_S256x2048_1_0_0_1_n_n.rhsIdx_val_of_single rfl j q
  rhs1 := fun j q => by
    unfold DotDims.rhsIdx
    rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
    rfl

/-- The result's product contracts the 2048 keys: left operand at (row, key), right at (key, feature). -/
theorem mixDims : RowLayers.RowsTimesCols dot_S256x2048_S2048x64_S256x64_1_0_0_1_n_n where
  rank := rfl
  size := rfl
  lhs0 := fun j q => by
    unfold DotDims.lhsIdx
    rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
    rfl
  lhs1 := fun j q => dot_S256x2048_S2048x64_S256x64_1_0_0_1_n_n.lhsIdx_val_of_single rfl j q
  rhs0 := fun j q => dot_S256x2048_S2048x64_S256x64_1_0_0_1_n_n.rhsIdx_val_of_single rfl j q
  rhs1 := fun j q => by
    unfold DotDims.rhsIdx
    rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
    rfl

/-! ## The row reductions of a `[256, 2048]` array -/

/-- The index a reduction along axis 1 inserts coordinate `k` into, over the reduced index `p`, is `(p, k)`. -/
theorem lift_row (h : S256x2048.Reduces [1] S256) (p : Fin 256) (k : Fin 2048) : h.lift (ix1 p) k = ix2 p k :=
  funext fun ax => Fin.ext (by
    match ax with
    | ⟨0, _⟩ => rfl
    | ⟨1, _⟩ => rfl)

/-- The maximum along axis 1 from the pattern of `-inf`, read at row `p`: the fold of `max` over the row's entries. -/
theorem rowMax_apply (s : FVec Ideal S256x2048 .f32) (h : S256x2048.Reduces [1] S256) (hφ : FKind.Formats .f32)
    (hacc : (0xFF800000#32 : BitVec 32) = FKind.maximumf.neutral .f32 hφ) (p : Fin 256) :
    multiReduction (F := Ideal) .maximumf [1] S256 s 0xFF800000#32 h hφ hacc (ix1 p)
      = (Finset.univ : Finset (Fin 2048)).fold max (Ideal.ofBits .f32 0xFF800000#32) (fun k => s (ix2 p k)) := by
  refine (Ideal.multiReduction_maximumf_single s 0xFF800000#32 h hφ hacc (ix1 p)).trans ?_
  show (Finset.univ : Finset (Fin 2048)).fold max (Ideal.ofBits .f32 0xFF800000#32) (fun k => s (h.lift (ix1 p) k)) = _
  exact congrArg (fun f : Fin 2048 → EReal => (Finset.univ : Finset (Fin 2048)).fold max (Ideal.ofBits .f32 0xFF800000#32) f)
    (funext fun k => congrArg s (lift_row h p k))

/-- The sum along axis 1 from the pattern of `0`, read at row `p`: the sum of the row's entries. -/
theorem rowSum_apply (e : FVec Ideal S256x2048 .f32) (h : S256x2048.Reduces [1] S256) (hφ : FKind.Formats .f32)
    (hacc : (0x00000000#32 : BitVec 32) = FKind.add.neutral .f32 hφ) (p : Fin 256) :
    multiReduction (F := Ideal) .add [1] S256 e 0x00000000#32 h hφ hacc (ix1 p) = ∑ k : Fin 2048, e (ix2 p k) := by
  refine (Ideal.multiReduction_add_single e 0x00000000#32 h hφ hacc (ix1 p)).trans ?_
  show ∑ k : Fin 2048, e (h.lift (ix1 p) k) = _
  exact Finset.sum_congr rfl fun k _ => congrArg e (lift_row h p k)

/-! ## The four stages at an entry -/

/-- The scaled score of query row `p` against key row `k`. -/
theorem scores_apply (Kc : FVec Ideal S2048x64 .bf16) (Qc : FVec Ideal S256x64 .bf16) (p : Fin 256) (k : Fin 2048) :
    scores Kc Qc (ix2 p k) = (∑ d' : Fin 64, Qc (ix2 p d') * Kc (ix2 k d')) * Ideal.ofBits .f32 0x3E000000#32 := by
  unfold scores
  show matmul dot_S256x64_S64x2048_S256x2048_1_0_0_1_n_n none Qc (transpose S64x2048 [1, 0] Kc transposes_S2048x64_p1_0_S64x2048)
        (constant (F := Ideal) S256x2048 .f32 0x00000000#32) (ix2 p k) * Ideal.ofBits .f32 0x3E000000#32 = _
  refine congrArg (fun z : EReal => z * Ideal.ofBits .f32 0x3E000000#32) ?_
  refine (congrFun (RowLayers.rowOf_matmul_zero scoreDims none Qc _ p) k).trans ?_
  refine Finset.sum_congr rfl fun d' _ => ?_
  exact congrArg (fun z : EReal => Qc (ix2 p d') * z) (transpose_ix2_apply Kc _ d' k)

/-- The exponential of an entry shifted by its row's maximum. -/
theorem expo_apply (s : FVec Ideal S256x2048 .f32) (p : Fin 256) (k : Fin 2048) :
    expo s (ix2 p k)
      = Ideal.exp (s (ix2 p k) - (Finset.univ : Finset (Fin 2048)).fold max (Ideal.ofBits .f32 0xFF800000#32) (fun k' => s (ix2 p k'))) := by
  unfold expo
  refine congrArg (fun z : EReal => Ideal.exp (s (ix2 p k) - z)) ?_
  refine (ColumnForms.broadcastTo_a1_ab_apply _ _ p k).trans ?_
  refine (ColumnForms.shapeCast_a_a1_apply _ _ p 0).trans ?_
  exact rowMax_apply s _ _ _ p

/-- An entry divided by its row's sum. -/
theorem weights_apply (e : FVec Ideal S256x2048 .f32) (p : Fin 256) (k : Fin 2048) :
    weights e (ix2 p k) = Ideal.div (e (ix2 p k)) (∑ k' : Fin 2048, e (ix2 p k')) := by
  unfold weights
  refine congrArg (fun z : EReal => Ideal.div (e (ix2 p k)) z) ?_
  refine (ColumnForms.broadcastTo_a1_ab_apply _ _ p k).trans ?_
  refine (ColumnForms.shapeCast_a_a1_apply _ _ p 0).trans ?_
  exact rowSum_apply e _ _ _ p

/-- The weights of row `p` times column `d` of the values. -/
theorem mix_apply (a : FVec Ideal S256x2048 .bf16) (Kc : FVec Ideal S2048x64 .bf16) (p : Fin 256) (d : Fin 64) :
    mix a Kc (ix2 p d) = ∑ k : Fin 2048, a (ix2 p k) * Kc (ix2 k d) :=
  congrFun (RowLayers.rowOf_matmul_zero mixDims none a Kc p) d

/-! ## One head -/

/-- The head's payload is the four stages composed, on the keys and the query rows with their unit axes dropped. -/
theorem pay_eq (K : Vec Ideal S1x1x2048x64 .bf16) (Q : Vec Ideal S1x1x256x64 .bf16) :
    k1_pay2 (F := Ideal) K Q
      = mix (weights (expo (scores (shapeCast S2048x64 K shapeCasts_S1x1x2048x64_S2048x64)
                                   (shapeCast S256x64 Q shapeCasts_S1x1x256x64_S256x64))))
            (shapeCast S2048x64 K shapeCasts_S1x1x2048x64_S2048x64) := rfl

/-- Entry `(p, d)` of one head: the softmax of query row `p`'s scaled scores against all key rows, times column `d` of
    the values (which are the keys). -/
theorem head_apply (K : Vec Ideal S1x1x2048x64 .bf16) (Q : Vec Ideal S1x1x256x64 .bf16) (p : Fin 256) (d : Fin 64) :
    k1_pay2 (F := Ideal) K Q (ix2 p d)
      = headFeat (fun k d' => K (ix4 (0 : Fin 1) (0 : Fin 1) k d')) (fun d' => Q (ix4 (0 : Fin 1) (0 : Fin 1) p d')) d := by
  rw [pay_eq]
  simp only [mix_apply, weights_apply, expo_apply, scores_apply, shapeCast_11ab_ab_apply]
  rfl

end Cert.Attn.Head

end
-- ==== Proof.OutProjValue.lean ====
/-
  The end of the fused attention kernel's body, read at one entry of the stored block.

  Sixteen head outputs, each [256, 64], are set side by side along the columns into one [256, 1024] array: column
  `j` of row `p` is head `j / 64` at feature `j % 64` (`merged_apply`). That array is multiplied by the
  [1024, 1024] output weight into a zero accumulator, the [1, 1024] bias row is added to every row, and the result is
  viewed [1, 256, 1024]. Entry `(0, p, e)` of what is stored is therefore

      (∑ j < 1024, head_{j / 64}[p, j % 64] · wo[j, e]) + bo[0, e]

  (`outproj_apply`). The product's dimension numbers say "rows times columns" (`outDims`): one contracted axis of
  extent 1024, the left operand read at (row, position) and the right one at (position, column). The two casts of an
  array to its own shape are the identity, and the last cast only adds a leading unit axis.
-/
import proofs.«166996_j21715354648981_2_alg».proof.Proof.Gen.KernelIdeal.Skeleton
import proofs.«166996_j21715354648981_2_alg».proof.Proof.Spec
import proofs.«166996_j21715354648981_2_alg».proof.Proof.LibRowLayers
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.OutProj

open Cert.KernelIdeal Cert.KernelIdeal.Gen Cert.Attn Cert.RowLayers Idealize.ShloMosaic Idealize.ShloMosaic.ValueIdx

/-- The sixteen heads side by side: column `j` of row `p` of the concatenation along the columns is head `j / 64`
    read at row `p`, feature `j % 64`. All pieces have one shape, so the piece is found by dividing the column by the
    pieces' common width. -/
theorem merged_apply (hs : Fin 16 → FVec Ideal S256x64 .bf16) (p : Fin 256) (j : Fin 1024) :
    concatenate S256x1024 1 [⟨S256x64, hs 0⟩, ⟨S256x64, hs 1⟩, ⟨S256x64, hs 2⟩, ⟨S256x64, hs 3⟩, ⟨S256x64, hs 4⟩, ⟨S256x64, hs 5⟩, ⟨S256x64, hs 6⟩, ⟨S256x64, hs 7⟩, ⟨S256x64, hs 8⟩, ⟨S256x64, hs 9⟩, ⟨S256x64, hs 10⟩, ⟨S256x64, hs 11⟩, ⟨S256x64, hs 12⟩, ⟨S256x64, hs 13⟩, ⟨S256x64, hs 14⟩, ⟨S256x64, hs 15⟩] concatenates_S256x64_S256x64_S256x64_S256x64_S256x64_S256x64_S256x64_S256x64_S256x64_S256x64_S256x64_S256x64_S256x64_S256x64_S256x64_S256x64_S256x1024_d1 (ix2 p j)
      = hs ⟨j.val / 64, by omega⟩ (ix2 p ⟨j.val % 64, by omega⟩) := by
  have h' : Shape.Concatenates ((List.ofFn fun n : Fin 16 => (⟨S256x64, hs n⟩ : (s : Shape) × (s.Idx → Ideal .bf16))).map (·.1)) S256x1024 1 :=
    concatenates_S256x64_S256x64_S256x64_S256x64_S256x64_S256x64_S256x64_S256x64_S256x64_S256x64_S256x64_S256x64_S256x64_S256x64_S256x64_S256x64_S256x1024_d1
  exact concatenate_ofFn_apply (t := S256x1024) (s₁ := S256x64) 1 hs h' rfl 64 rfl (ix2 p j) ⟨j.val / 64, by omega⟩ rfl
    (ix2 p ⟨j.val % 64, by omega⟩) rfl (fun b hb => by
      match b with
      | ⟨0, _⟩ => rfl
      | ⟨1, _⟩ => exact absurd rfl hb)

/-- The output projection's dimension numbers contract the one axis of extent 1024, reading the merged rows at
    (row, position) and the weight at (position, column). -/
theorem outDims : RowsTimesCols dot_S256x1024_S1024x1024_S256x1024_1_0_0_1_n_n where
  rank := rfl
  size := rfl
  lhs0 := fun j q => by
    unfold DotDims.lhsIdx
    rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
    rfl
  lhs1 := fun j q => dot_S256x1024_S1024x1024_S256x1024_1_0_0_1_n_n.lhsIdx_val_of_single rfl j q
  rhs0 := fun j q => dot_S256x1024_S1024x1024_S256x1024_1_0_0_1_n_n.rhsIdx_val_of_single rfl j q
  rhs1 := fun j q => by
    unfold DotDims.rhsIdx
    rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
    rfl

/-- Entry `(0, p, e)` of the block the kernel stores: the merged row `p` of the sixteen heads times column `e` of the
    output weight, plus the bias at `e`. -/
theorem outproj_apply (hs : Fin 16 → FVec Ideal S256x64 .bf16) (wo : Vec Ideal S1024x1024 .bf16) (bo : Vec Ideal S1x1024 .f32)
    (p : Fin 256) (e : Fin 1024) :
    k1_pay1 (F := Ideal)
        (matmul dot_S256x1024_S1024x1024_S256x1024_1_0_0_1_n_n none
          (concatenate S256x1024 1 [⟨S256x64, hs 0⟩, ⟨S256x64, hs 1⟩, ⟨S256x64, hs 2⟩, ⟨S256x64, hs 3⟩, ⟨S256x64, hs 4⟩, ⟨S256x64, hs 5⟩, ⟨S256x64, hs 6⟩, ⟨S256x64, hs 7⟩, ⟨S256x64, hs 8⟩, ⟨S256x64, hs 9⟩, ⟨S256x64, hs 10⟩, ⟨S256x64, hs 11⟩, ⟨S256x64, hs 12⟩, ⟨S256x64, hs 13⟩, ⟨S256x64, hs 14⟩, ⟨S256x64, hs 15⟩] concatenates_S256x64_S256x64_S256x64_S256x64_S256x64_S256x64_S256x64_S256x64_S256x64_S256x64_S256x64_S256x64_S256x64_S256x64_S256x64_S256x64_S256x1024_d1)
          (shapeCast S1024x1024 wo shapeCasts_S1024x1024_S1024x1024 : FVec Ideal S1024x1024 .bf16) (constant S256x1024 .f32 0x00000000#32))
        bo (ix3 (0 : Fin 1) p e)
      = (∑ j : Fin 1024, hs ⟨j.val / 64, by omega⟩ (ix2 p ⟨j.val % 64, by omega⟩) * wo (ix2 j e)) + bo (ix2 (0 : Fin 1) e) := by
  unfold k1_pay1
  refine (shapeCast_ab_1ab_apply _ shapeCasts_S256x1024_S1x256x1024 (0 : Fin 1) p e).trans ?_
  refine (congrFun (rowOf_dense_device outDims none
    (concatenate S256x1024 1 [⟨S256x64, hs 0⟩, ⟨S256x64, hs 1⟩, ⟨S256x64, hs 2⟩, ⟨S256x64, hs 3⟩, ⟨S256x64, hs 4⟩, ⟨S256x64, hs 5⟩, ⟨S256x64, hs 6⟩, ⟨S256x64, hs 7⟩, ⟨S256x64, hs 8⟩, ⟨S256x64, hs 9⟩, ⟨S256x64, hs 10⟩, ⟨S256x64, hs 11⟩, ⟨S256x64, hs 12⟩, ⟨S256x64, hs 13⟩, ⟨S256x64, hs 14⟩, ⟨S256x64, hs 15⟩] concatenates_S256x64_S256x64_S256x64_S256x64_S256x64_S256x64_S256x64_S256x64_S256x64_S256x64_S256x64_S256x64_S256x64_S256x64_S256x64_S256x64_S256x1024_d1)
    (shapeCast S1024x1024 wo shapeCasts_S1024x1024_S1024x1024 : FVec Ideal S1024x1024 .bf16) (shapeCast S1x1024 bo shapeCasts_S1x1024_S1x1024 : FVec Ideal S1x1024 .f32)
    broadcasts_S1x1024_S256x1024 p) e).trans ?_
  show (∑ k : Fin 1024, concatenate S256x1024 1 [⟨S256x64, hs 0⟩, ⟨S256x64, hs 1⟩, ⟨S256x64, hs 2⟩, ⟨S256x64, hs 3⟩, ⟨S256x64, hs 4⟩, ⟨S256x64, hs 5⟩, ⟨S256x64, hs 6⟩, ⟨S256x64, hs 7⟩, ⟨S256x64, hs 8⟩, ⟨S256x64, hs 9⟩, ⟨S256x64, hs 10⟩, ⟨S256x64, hs 11⟩, ⟨S256x64, hs 12⟩, ⟨S256x64, hs 13⟩, ⟨S256x64, hs 14⟩, ⟨S256x64, hs 15⟩] concatenates_S256x64_S256x64_S256x64_S256x64_S256x64_S256x64_S256x64_S256x64_S256x64_S256x64_S256x64_S256x64_S256x64_S256x64_S256x64_S256x64_S256x1024_d1 (ix2 p k)
        * (shapeCast S1024x1024 wo shapeCasts_S1024x1024_S1024x1024 : FVec Ideal S1024x1024 .bf16) (ix2 k e))
      + (shapeCast S1x1024 bo shapeCasts_S1x1024_S1x1024 : FVec Ideal S1x1024 .f32) (ix2 (0 : Fin 1) e) = _
  rw [shapeCast_self wo, shapeCast_self bo]
  exact congrArg (· + bo (ix2 (0 : Fin 1) e))
    (Finset.sum_congr rfl fun j _ => congrArg (· * wo (ix2 j e)) (merged_apply hs p j))

end Cert.Attn.OutProj

end
-- ==== Proof.KernelValue.lean ====
/-
  The kernel program's result, from the launch memory.

  Between the two kernels the host re-reads the projection [8192, 1024] as [4, 16, 2048, 64] (same row-major
  positions), narrows the output weight to bf16 (the identity on extended reals) and views the output bias as a row.
  So the second kernel finds: the projection re-read by position, the output weight, the bias row — and its result
  array, one function of those three, is the specification's `attnOut` of the five arguments.
-/
import proofs.«166996_j21715354648981_2_alg».proof.Proof.Region1Value
import proofs.«166996_j21715354648981_2_alg».proof.Proof.HeadValue
import proofs.«166996_j21715354648981_2_alg».proof.Proof.OutProjValue
import Idealize.ShloMosaic.Lib.Pipeline.Value
import Idealize.ShloMosaic.Lib.ValueLayout
import Idealize.ShloMosaic.Lib.StableHlo.Run
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.Attn.KV

open Cert.KernelIdeal Cert.KernelIdeal.Gen Cert.Attn Cert.Attn.R1

variable (m : (ℓ : Loc nD τ sig) → Buf (Elt Ideal) ℓ) (ρ : Dev nD → PrngReg)

/-! ## The arguments, after the first kernel -/

/-- The first kernel and the host operations before it leave `main_arg3` as launched. -/
theorem w2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The first kernel and the host operations before it leave `main_arg4` as launched. -/
theorem w2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## What the second kernel finds -/

/-- The projection, re-read as [4, 16, 2048, 64]. -/
theorem entry_v4 (c : Dev nD) :
    (V3 m ρ c main_v4 : S4x16x2048x64.Idx → EReal)
      = shapeCast S4x16x2048x64 ((dat0 (V1 m ρ) c).arrAt 3 cfg0.N) shapeCasts_S8192x1024_S4x16x2048x64 := by
  show StableHlo.after hostOps1 (W2 m ρ c) (Proc.devRef .tc main_v4) = _
  after_results
  have h3 : W2 m ρ c (Proc.devRef .tc main_v3) = (dat0 (V1 m ρ) c).arrAt 3 cfg0.N := W2_arr m ρ c 3
  rw [h3]
  rfl

/-- The output weight (narrowed to bf16: the same extended reals). -/
theorem entry_v5 (c : Dev nD) :
    (V3 m ρ c main_v5 : S1024x1024.Idx → EReal)
      = (truncf (F := Ideal) .bf16 (m ((c : Thread nD τ).loc main_arg3) : FVec Ideal S1024x1024 .f32) bitsLt_bf16_f32
          : FVec Ideal S1024x1024 .bf16) := by
  show StableHlo.after hostOps1 (W2 m ρ c) (Proc.devRef .tc main_v5) = _
  after_results
  rw [w2_main_arg3]

/-- The output bias, viewed as a row. -/
theorem entry_v6 (c : Dev nD) :
    (V3 m ρ c main_v6 : S1x1024.Idx → EReal)
      = shapeCast S1x1024 (m ((c : Thread nD τ).loc main_arg4)) shapeCasts_S1024_S1x1024 := by
  show StableHlo.after hostOps1 (W2 m ρ c) (Proc.devRef .tc main_v6) = _
  after_results
  rw [w2_main_arg4]
  rfl

/-! ## The two kernels joined -/

/-- Entry (bb, h, s, d) of the re-read projection is the specification's `headsAt`: position
    ((bb·16 + h)·2048 + s)·64 + d of the flat buffer is row (bb·16 + h)·128 + s / 16, column (s % 16)·64 + d. -/
theorem heads_entry (c : Dev nD)
    (Hproj : ∀ (r : Fin 8192) (e : Fin 1024),
      ((dat0 (V1 m ρ) c).arrAt 3 cfg0.N : S8192x1024.Idx → EReal) (ix2 r e)
        = projAt (m ((c : Thread nD τ).loc main_arg0)) (m ((c : Thread nD τ).loc main_arg1)) (m ((c : Thread nD τ).loc main_arg2)) r e)
    (bb : Fin 4) (h : Fin 16) (s : Fin 2048) (d : Fin 64) :
    (V3 m ρ c main_v4 : S4x16x2048x64.Idx → EReal) (ix4 bb h s d)
      = headsAt (m ((c : Thread nD τ).loc main_arg0)) (m ((c : Thread nD τ).loc main_arg1)) (m ((c : Thread nD τ).loc main_arg2)) bb h s d := by
  rw [entry_v4]
  rw [shapeCast_apply _ _ (ix4 bb h s d)
    (ix2 (⟨(bb.val * 16 + h.val) * 128 + s.val / 16, by omega⟩ : Fin 8192) (⟨(s.val % 16) * 64 + d.val, by omega⟩ : Fin 1024))
    (by
      rw [Shape.rowMajor_val_two, Shape.rowMajor_val_four]
      show ((bb.val * 16 + h.val) * 128 + s.val / 16) * 1024 + ((s.val % 16) * 64 + d.val)
        = ((bb.val * 16 + h.val) * 2048 + s.val) * 64 + d.val
      omega)]
  rw [Hproj]
  rfl

/-- The kernel program's result array is the specification's `attnOut` of the five arguments. -/
theorem kernel_value (c : Dev nD)
    (Hproj : ∀ (r : Fin 8192) (e : Fin 1024),
      ((dat0 (V1 m ρ) c).arrAt 3 cfg0.N : S8192x1024.Idx → EReal) (ix2 r e)
        = projAt (m ((c : Thread nD τ).loc main_arg0)) (m ((c : Thread nD τ).loc main_arg1)) (m ((c : Thread nD τ).loc main_arg2)) r e) :
    (dat1 (V3 m ρ) c).arrAt 3 cfg1.N
      = attnOut (m ((c : Thread nD τ).loc main_arg0)) (m ((c : Thread nD τ).loc main_arg1)) (m ((c : Thread nD τ).loc main_arg2))
          (m ((c : Thread nD τ).loc main_arg3)) (m ((c : Thread nD τ).loc main_arg4)) := by
  rw [R1.final (V3 m ρ) Cert.Attn.Head.head_apply Cert.Attn.OutProj.outproj_apply c]
  have h5 : ∀ (j e : Fin 1024), (V3 m ρ c main_v5 : S1024x1024.Idx → EReal) (ix2 j e)
      = m ((c : Thread nD τ).loc main_arg3) (ix2 j e) := by
    intro j e; rw [entry_v5]; rfl
  have h6 : ∀ (e : Fin 1024), (V3 m ρ c main_v6 : S1x1024.Idx → EReal) (ix2 (0 : Fin 1) e)
      = m ((c : Thread nD τ).loc main_arg4) (ix1 e) := by
    intro e; rw [entry_v6]; exact shapeCast_a_1a_apply _ _ _ _
  funext i
  unfold attnArr attnOut attnOf outAt mergedAt featAt
  simp only [heads_entry m ρ c Hproj, h5, h6]

end Cert.Attn.KV

end
-- ==== Proof.KernelRun.lean ====
/-
  The kernel program's run with its RESULT named: every weakly fair execution of @main terminates, nothing faulting,
  with the result buffer holding what the second kernel's write-backs leave in its output array, and the five
  arguments as launched. The run is the launch over @main's four segments — a host stretch, the projection kernel, a
  host stretch, the attention kernel —; the last thread state holds every unscoped buffer at the last boundary's
  contents, of which the result buffer is the second kernel's output window's array.
-/
import proofs.«166996_j21715354648981_2_alg».proof.Proof.Gen.KernelIdeal.Frame

set_option maxRecDepth 16384

noncomputable section

namespace Cert.Attn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents beside the arguments. -/
theorem run_named : θ_run defs (onTc (τ := τ) (main (F := F))) ⟨m, fun _ => 0, ρ⟩ (fun r => ∀ c : Dev nD,
      r.2.mem ((c.tc : Thread nD τ).loc main_v7) = (dat1 (V3 m ρ) c).arrAt 3 cfg1.N
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v7 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Attn.Run

end
-- ==== Proof.lean ====
/-
  The multi-head attention layer: the Pallas kernel program against its jnp reference.

  Both programs compute, over the extended reals, ONE function of the five arguments (Proof/Spec.lean, `attnOut`):
  the input [4, 2048, 1024], read as 8192 rows, is projected (x · Wqkv + bqkv); the projection is re-read as
  [4, 16, 2048, 64] by row-major position (a plain re-reading of memory, the same in both programs, not a transposition
  of heads), and serves as queries, keys and values at once; per batch and head the scores q · kᵀ are scaled, shifted by
  their row maximum, exponentiated, normalised by their row sum, and applied to the values; the sixteen heads' features
  are set side by side and projected (· Wo + bo).

  The two programs differ in: the scaling (the kernel multiplies by the pattern of 0.125, the reference divides by the
  pattern of 8: on the extended reals dividing by the real 8 IS multiplying by the real 1/8, at the infinities too —
  Proof/Consts.lean); the reference's extra `max (-inf, ·)` around the row maximum (the identity); float formats (the
  kernel narrows to bf16 between steps: the identity at the ideal values); the tiling (the kernel projects 1024 rows per
  grid point and attends 256 query rows per grid point against a head's whole 2048 rows, the sixteen heads unrolled in
  the body); and the head merge (a lane concatenation in the kernel, a transposition and a reshape in the reference).
  No sum is re-ordered and no law that fails at an infinity is used, so the precondition is never opened.

  The pieces: Proof/RefSide.lean (the reference's run term is `attnOut`), Proof/ProjValue.lean (the first kernel's
  output array is the projection), Proof/HeadValue.lean (one head at an entry), Proof/OutProjValue.lean (the
  concatenate–project–add tail at an entry), Proof/Region1Body.lean and Proof/Region1Value.lean (the second kernel's
  output array as one function of the arrays it reads), Proof/KernelValue.lean (the host operations between the kernels,
  and the two kernels joined), Proof/KernelRun.lean (the kernel program's run with its result named).
-/
import proofs.«166996_j21715354648981_2_alg».proof.Defs
import proofs.«166996_j21715354648981_2_alg».proof.Proof.Gen.Kernel
import proofs.«166996_j21715354648981_2_alg».proof.Proof.Gen.Kernel.Frame
import proofs.«166996_j21715354648981_2_alg».proof.Proof.Gen.KernelIdeal
import proofs.«166996_j21715354648981_2_alg».proof.Proof.Gen.KernelIdeal.Frame
import proofs.«166996_j21715354648981_2_alg».proof.Proof.Gen.ReferenceIdeal
import proofs.«166996_j21715354648981_2_alg».proof.Proof.Gen.ReferenceIdeal.Run
import proofs.«166996_j21715354648981_2_alg».proof.Proof.Gen.ReferenceIdeal.Read
import proofs.«166996_j21715354648981_2_alg».proof.Proof.Gen.Pre_finite_inputs
import proofs.«166996_j21715354648981_2_alg».proof.Proof.RefSide
import proofs.«166996_j21715354648981_2_alg».proof.Proof.ProjValue
import proofs.«166996_j21715354648981_2_alg».proof.Proof.KernelValue
import proofs.«166996_j21715354648981_2_alg».proof.Proof.KernelRun
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The first kernel's output array, entry by entry, is the specification's projection. -/
theorem proj_entry (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (r : Fin 8192) (e : Fin 1024) :
    ((Cert.KernelIdeal.Gen.dat0 (Cert.KernelIdeal.Gen.V1 m ρ) c).arrAt 3 Cert.KernelIdeal.cfg0.N
        : Cert.KernelIdeal.S8192x1024.Idx → EReal) (ix2 r e)
      = Cert.Attn.projAt (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) r e := by
  rw [Cert.Attn.Proj.proj_final m ρ c]

/-- At the ideal values both programs end with the specification's `attnOut` of arguments that agree. -/
theorem algebraic : Cert.algebraic_KernelIdeal_ReferenceIdeal := by
  intro m ρ m' ρ' _ hagree
  refine ⟨fun c => Cert.Attn.attnOut
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · exact (θ_run Cert.KernelIdeal.defs _ _).mono
      (fun r h c => ⟨(h c).1.trans (Cert.Attn.KV.kernel_value m ρ c (proj_entry m ρ c)), (h c).2⟩)
      (Cert.Attn.Run.run_named (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v25_eq, Cert.Attn.RefSide.ref_is_spec,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
